-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x512x1024 : Shape := ⟨3, ![8, 512, 1024]⟩
abbrev S8x512 : Shape := ⟨2, ![8, 512]⟩
abbrev S1024x1024 : Shape := ⟨2, ![1024, 1024]⟩
abbrev S1024 : Shape := ⟨1, ![1024]⟩
abbrev S2048x1024 : Shape := ⟨2, ![2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S8x512 : S_.BroadcastsInDim S8x512 (![] : Fin 0 → Fin S8x512.rank)
  reducesTo_S8x512_S_d0_1 : S8x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg7 : FVec F S2048x1024 .f32) (main_arg8 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S2048x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x512x1024 .f32) (main_arg2 : FVec F S8x512 .f32) (main_arg3 : FVec F S1024x1024 .f32) (main_arg4 : FVec F S1024 .f32) (main_arg5 : FVec F S1024x1024 .f32) (main_arg6 : FVec F S1024 .f32) (main_arg7 : FVec F S2048x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S8x512x1024 : Shape := ⟨3, ![8, 512, 1024]⟩
abbrev S8x512 : Shape := ⟨2, ![8, 512]⟩
abbrev S1024x1024 : Shape := ⟨2, ![1024, 1024]⟩
abbrev S1024 : Shape := ⟨1, ![1024]⟩
abbrev S2048x1024 : Shape := ⟨2, ![2048, 1024]⟩
abbrev S8x1x512 : Shape := ⟨3, ![8, 1, 512]⟩
abbrev S1x512x1024 : Shape := ⟨3, ![1, 512, 1024]⟩
abbrev S1x1x512 : Shape := ⟨3, ![1, 1, 512]⟩
abbrev S512x1024 : Shape := ⟨2, ![512, 1024]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S8x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S8x2048x1024, .bf16⟩
  | .hbm, ⟨10, _⟩ => ⟨S1024x1024, .bf16⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S8x1x512, .f32⟩
  | .hbm, ⟨17, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x512, .f32⟩
  | .local _ .vmem, ⟨5, _⟩ => ⟨S1x1x512, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  slices_S2048x1024_S1024x1024_0_0 : S2048x1024.Slices ![0, 0] S1024x1024
  slices_S2048x1024_S1024x1024_1024_0 : S2048x1024.Slices ![1024, 0] S1024x1024
  bcast_S8x512_S8x1x512_0_2 : S8x512.BroadcastsInDim S8x1x512 (![0, 2] : Fin 2 → Fin S8x1x512.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .f32 = 32 ∨ (Rect.block (s := S8x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S8x2048x1024.size a
  hwx0_10 : ∀ i : grid0.Coords, EltTy.bits .f32 = 32 ∨ (Rect.block (s := S8x2048x1024) S1x512x1024.size (cc0_transform_10 i) (hinb0_10 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x512x1024 : Shape := ⟨3, ![8, 512, 1024]⟩
abbrev S8x512 : Shape := ⟨2, ![8, 512]⟩
abbrev S1024x1024 : Shape := ⟨2, ![1024, 1024]⟩
abbrev S1024 : Shape := ⟨1, ![1024]⟩
abbrev S2048x1024 : Shape := ⟨2, ![2048, 1024]⟩
abbrev S1x1x1024 : Shape := ⟨3, ![1, 1, 1024]⟩
abbrev S_ : Shape := ⟨0, ![]⟩
abbrev S8x2048x512 : Shape := ⟨3, ![8, 2048, 512]⟩
abbrev S8x1x512 : Shape := ⟨3, ![8, 1, 512]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S8x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x512x1024, .f32⟩
  | .hbm, ⟨17, _⟩ => ⟨S1x1x1024, .f32⟩
  | .hbm, ⟨18, _⟩ => ⟨S8x512x1024, .f32⟩
  | .hbm, ⟨19, _⟩ => ⟨S8x512x1024, .f32⟩
  | .hbm, ⟨20, _⟩ => ⟨S_, .f32⟩
  | .hbm, ⟨21, _⟩ => ⟨S8x512x1024, .f32⟩
  | .hbm, ⟨22, _⟩ => ⟨S8x512x1024, .f32⟩
  | .hbm, ⟨23, _⟩ => ⟨S8x2048x512, .f32⟩
  | .hbm, ⟨24, _⟩ => ⟨S_, .f32⟩
  | .hbm, ⟨25, _⟩ => ⟨S8x2048x512, .f32⟩
  | .hbm, ⟨26, _⟩ => ⟨S8x2048x512, .f32⟩
  | .hbm, ⟨27, _⟩ => ⟨S8x1x512, .f32⟩
  | .hbm, ⟨28, _⟩ => ⟨S_, .f32⟩
  | .hbm, ⟨29, _⟩ => ⟨S8x1x512, .f32⟩
  | .hbm, ⟨30, _⟩ => ⟨S8x1x512, .f32⟩
  | .hbm, ⟨31, _⟩ => ⟨S_, .f32⟩
  | .hbm, ⟨32, _⟩ => ⟨S8x1x512, .f32⟩
  | .hbm, ⟨33, _⟩ => ⟨S8x1x512, .f32⟩
  | .hbm, ⟨34, _⟩ => ⟨S8x2048x512, .f32⟩
  | .hbm, ⟨35, _⟩ => ⟨S8x2048x512, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048x1, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x512, .f32⟩
  | .hbm, ⟨49, _⟩ => ⟨S8x2048x512, .f32⟩
  | .hbm, ⟨50, _⟩ => ⟨S8x2048x1024, .f32⟩
  | .hbm, ⟨51, _⟩ => ⟨S8x2048x2048, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  bcast_S1x1x1024_S8x512x1024_0_1_2 : S1x1x1024.BroadcastsInDim S8x512x1024 (![0, 1, 2] : Fin 3 → Fin S8x512x1024.rank)
  bcast_S_S8x512x1024 : S_.BroadcastsInDim S8x512x1024 (![] : Fin 0 → Fin S8x512x1024.rank)
  bcast_S_S8x2048x512 : S_.BroadcastsInDim S8x2048x512 (![] : Fin 0 → Fin S8x2048x512.rank)
  bcast_S8x512_S8x1x512_0_2 : S8x512.BroadcastsInDim S8x1x512 (![0, 2] : Fin 2 → Fin S8x1x512.rank)
  bcast_S_S8x1x512 : S_.BroadcastsInDim S8x1x512 (![] : Fin 0 → Fin S8x1x512.rank)
  bcast_S8x1x512_S8x2048x512_0_1_2 : S8x1x512.BroadcastsInDim S8x2048x512 (![0, 1, 2] : Fin 3 → Fin S8x2048x512.rank)
  reducesTo_S8x2048x512_S8x2048_d2 : S8x2048x512.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x512_0_1_2 : S8x2048x1.BroadcastsInDim S8x2048x512 (![0, 1, 2] : Fin 3 → Fin S8x2048x512.rank)
  concatenates_S8x2048x1024_S8x2048x1024_S8x2048x2048_d2 : Shape.Concatenates [S8x2048x1024, S8x2048x1024] S8x2048x2048 2
  dot_S8x2048x1024_S1024x1024_S8x2048x1024_2_0_01_1_n_n_wf : DotDims.WF S8x2048x1024 S1024x1024 S8x2048x1024 [2] [0] [0, 1] [1] [] []
  dot_S8x512x1024_S1024x1024_S8x512x1024_2_0_01_1_n_n_wf : DotDims.WF S8x512x1024 S1024x1024 S8x512x1024 [2] [0] [0, 1] [1] [] []
  dot_S8x2048x1024_S8x512x1024_S8x2048x512_2_2_1_1_0_0_wf : DotDims.WF S8x2048x1024 S8x512x1024 S8x2048x512 [2] [2] [1] [1] [0] [0]
  dot_S8x2048x512_S8x512x1024_S8x2048x1024_2_1_1_2_0_0_wf : DotDims.WF S8x2048x512 S8x512x1024 S8x2048x1024 [2] [1] [1] [2] [0] [0]
  dot_S8x2048x2048_S2048x1024_S8x2048x1024_2_0_01_1_n_n_wf : DotDims.WF S8x2048x2048 S2048x1024 S8x2048x1024 [2] [0] [0, 1] [1] [] []

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x512x1024_S1024x1024_S8x512x1024_2_0_01_1_n_n : DotDims S8x512x1024 S1024x1024 S8x512x1024 where
  lhsContracting := [2]
  rhsContracting := [0]
  lhsNonContracting := [0, 1]
  rhsNonContracting := [1]
  lhsBatch := []
  rhsBatch := []
  wf := dot_S8x512x1024_S1024x1024_S8x512x1024_2_0_01_1_n_n_wf
def dot_S8x2048x1024_S8x512x1024_S8x2048x512_2_2_1_1_0_0 : DotDims S8x2048x1024 S8x512x1024 S8x2048x512 where
  lhsContracting := [2]
  rhsContracting := [2]
  lhsNonContracting := [1]
  rhsNonContracting := [1]
  lhsBatch := [0]
  rhsBatch := [0]
  wf := dot_S8x2048x1024_S8x512x1024_S8x2048x512_2_2_1_1_0_0_wf
def dot_S8x2048x512_S8x512x1024_S8x2048x1024_2_1_1_2_0_0 : DotDims S8x2048x512 S8x512x1024 S8x2048x1024 where
  lhsContracting := [2]
  rhsContracting := [1]
  lhsNonContracting := [1]
  rhsNonContracting := [2]
  lhsBatch := [0]
  rhsBatch := [0]
  wf := dot_S8x2048x512_S8x512x1024_S8x2048x1024_2_1_1_2_0_0_wf
def dot_S8x2048x2048_S2048x1024_S8x2048x1024_2_0_01_1_n_n : DotDims S8x2048x2048 S2048x1024 S8x2048x1024 where
  lhsContracting := [2]
  rhsContracting := [0]
  lhsNonContracting := [0, 1]
  rhsNonContracting := [1]
  lhsBatch := []
  rhsBatch := []
  wf := dot_S8x2048x2048_S2048x1024_S8x2048x1024_2_0_01_1_n_n_wf

class Facts : Prop extends Facts₀ where

variable [Facts]
-- ==== Proof.KPieces.lean ====
import proofs.«126409_j6665789243993_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-!
# What each control case of the body leaves, as pure terms

The body runs in one of two ways. At the first query tile of a batch it first stores the memory projection into the
carried buffer and then reads it back; at the other tiles it reads what the previous tile left there. In both the
output block is one store, whose value is the gate applied to the block's operands and to the carried buffer's
contents.
-/

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first tile the carried buffer ends holding the memory projection of the batch's memory block. -/
theorem scratch_A (c : Dev nD) (i : grid0.Coords) (arg2 : Memref sig .tc .vmem S1x512x1024 .bf16) (harg2 : arg2.IsWhole) (arg3 : Memref sig .tc .vmem S1x512x1024 .f32) (harg3 : arg3.IsWhole) (arg4 : Memref sig .tc .vmem S1x1x512 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x512x1024 .f32) (harg12 : arg12.IsWhole) (arg13 : Memref sig .tc .vmem S512x1024 .f32) (harg13 : arg13.IsWhole) (hc0 : cond0_0 i)
    (x0 : Vec F S1x512x1024 .bf16) (x1 : Vec F S1x512x1024 .f32) (x2 : Vec F S1x1x512 .f32) (x3 : Vec F S1024x1024 .bf16) (x4 : Vec F S1024 .f32) (x5 : Vec F S1024x1024 .bf16) (x6 : Vec F S1024 .f32) (x7 : Vec F S1024x1024 .bf16) (x8 : Vec F S1024x1024 .bf16) (x9 : Vec F S1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = k0_pay2 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x1024) hz3, View.ld_unit_zero (S := S1x1x512) hz3, View.ld_unit_zero (S := S1024x1024) hz2, View.ld_unit_zero (S := S512x1024) hz2, View.ld_unit_zero (S := S1024) hz1]

/-- At a batch's first tile the output block is the gate over the projection just stored. -/
theorem out_A (c : Dev nD) (i : grid0.Coords) (arg2 : Memref sig .tc .vmem S1x512x1024 .bf16) (harg2 : arg2.IsWhole) (arg3 : Memref sig .tc .vmem S1x512x1024 .f32) (harg3 : arg3.IsWhole) (arg4 : Memref sig .tc .vmem S1x1x512 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x512x1024 .f32) (harg12 : arg12.IsWhole) (arg13 : Memref sig .tc .vmem S512x1024 .f32) (harg13 : arg13.IsWhole) (hc0 : cond0_0 i)
    (x0 : Vec F S1x512x1024 .bf16) (x1 : Vec F S1x512x1024 .f32) (x2 : Vec F S1x1x512 .f32) (x3 : Vec F S1024x1024 .bf16) (x4 : Vec F S1024 .f32) (x5 : Vec F S1024x1024 .bf16) (x6 : Vec F S1024 .f32) (x7 : Vec F S1024x1024 .bf16) (x8 : Vec F S1024x1024 .bf16) (x9 : Vec F S1024 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = k0_pay1 (k0_pay3 x0) (k0_pay4 x0 x3 x4 (k0_pay2 x1 x5 x6) x2) x1 x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x1024) hz3, View.ld_unit_zero (S := S1x1x512) hz3, View.ld_unit_zero (S := S1024x1024) hz2, View.ld_unit_zero (S := S512x1024) hz2, View.ld_unit_zero (S := S1024) hz1]
  rw [View.readCov_unit_zero (S := S512x1024) _ hz2]

/-- At any other tile the output block is the gate over what the carried buffer held on entry. -/
theorem out_B (c : Dev nD) (i : grid0.Coords) (arg2 : Memref sig .tc .vmem S1x512x1024 .bf16) (harg2 : arg2.IsWhole) (arg3 : Memref sig .tc .vmem S1x512x1024 .f32) (harg3 : arg3.IsWhole) (arg4 : Memref sig .tc .vmem S1x1x512 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024 .f32) (harg11 : arg11.IsWhole) (arg12 : Memref sig .tc .vmem S1x512x1024 .f32) (harg12 : arg12.IsWhole) (arg13 : Memref sig .tc .vmem S512x1024 .f32) (harg13 : arg13.IsWhole) (hc0 : ¬cond0_0 i)
    (x0 : Vec F S1x512x1024 .bf16) (x1 : Vec F S1x512x1024 .f32) (x2 : Vec F S1x1x512 .f32) (x3 : Vec F S1024x1024 .bf16) (x4 : Vec F S1024 .f32) (x5 : Vec F S1024x1024 .bf16) (x6 : Vec F S1024 .f32) (x7 : Vec F S1024x1024 .bf16) (x8 : Vec F S1024x1024 .bf16) (x9 : Vec F S1024 .f32) (xs0 : Vec F S512x1024 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = k0_pay1 (k0_pay3 x0) (k0_pay4 x0 x3 x4 xs0 x2) x1 x7 x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x1024) hz3, View.ld_unit_zero (S := S1x1x512) hz3, View.ld_unit_zero (S := S1024x1024) hz2, View.ld_unit_zero (S := S512x1024) hz2, View.ld_unit_zero (S := S1024) hz1, harg13.read_unread]

end Cert.KernelIdeal.Pieces

end
-- ==== Proof.KBlocks.lean ====
import proofs.«126409_j6665789243993_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

/-!
# The blocks the body is handed, entry by entry

The grid has 8 × 4 points, batch outermost: point `t` works on batch `t / 4` and on the query rows
`(t % 4) · 512 … (t % 4) · 512 + 511`. At that point the query window holds those rows of the batch, the memory and
mask windows hold the whole batch's memory and mask row (the same block at the four points of a batch), the weight
and bias windows hold their whole arrays. The query array and the weight matrices reach the kernel after a change of
float format, the two halves of the last weight matrix as its upper and lower 1024 rows, the mask with a unit axis
inserted: over the extended reals none of this changes an entry.
-/

namespace Cert.KernelIdeal.Blocks

open Cert.KernelIdeal Cert.KernelIdeal.Gen

section AnyValues

variable {F : FTy → Type} [FloatOps F]
variable (m : (ℓ : Loc nD τ sig) → Buf (Elt F) ℓ)

/-- The batch a grid point works on. -/
def bOf (t : Fin cfg0.N) : Fin 8 := ⟨t.val / 4, by have h := t.isLt; have hN : cfg0.N = 32 := N_0; omega⟩

/-- The query row, in the whole array, of local row `r` of a grid point's tile. -/
def rowOf (t : Fin cfg0.N) (r : Fin 512) : Fin 2048 := ⟨t.val % 4 * 512 + r.val, by have := r.isLt; omega⟩

/-- The windows' block indices at every grid point (decided over the 32 points). -/
theorem idx_facts : ∀ t : Fin cfg0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = 0 ∧ win0_3.index t 1 = 0) ∧ win0_4.index t 0 = 0
    ∧ (win0_5.index t 0 = 0 ∧ win0_5.index t 1 = 0) ∧ win0_6.index t 0 = 0
    ∧ (win0_7.index t 0 = 0 ∧ win0_7.index t 1 = 0) ∧ (win0_8.index t 0 = 0 ∧ win0_8.index t 1 = 0)
    ∧ win0_9.index t 0 = 0
    ∧ (win0_10.index t 0 = t.val / 4 ∧ win0_10.index t 1 = t.val % 4 ∧ win0_10.index t 2 = 0) :=
  (by decide +kernel : ∀ t : Fin grid0.N, _)

theorem iblk0_apply (c : Dev nD) (t : Fin cfg0.N) (u : Fin 1) (r : Fin 512) (d : Fin 1024) :
    (iblk m c 0 t : Vec F S1x512x1024 .bf16) (ix3 u r d) = V m c main_v0 (ix3 (bOf t) (rowOf t r) d) := by
  unfold iblk
  rw [View.read_apply]
  show V m c main_v0 _ = V m c main_v0 _
  congr 1
  funext a
  apply Fin.ext
  match a with
  | ⟨0, _⟩ => show win0_0.index t 0 * 1 + 1 * u.val = t.val / 4; rw [(idx_facts t).1.1]; omega
  | ⟨1, _⟩ => show win0_0.index t 1 * 512 + 1 * r.val = t.val % 4 * 512 + r.val; rw [(idx_facts t).1.2.1]; omega
  | ⟨2, _⟩ => show win0_0.index t 2 * 1024 + 1 * d.val = d.val; rw [(idx_facts t).1.2.2]; omega

theorem iblk1_apply (c : Dev nD) (t : Fin cfg0.N) (u : Fin 1) (j : Fin 512) (d : Fin 1024) :
    (iblk m c 1 t : Vec F S1x512x1024 .f32) (ix3 u j d) = V m c main_arg1 (ix3 (bOf t) j d) := by
  unfold iblk
  rw [View.read_apply]
  show V m c main_arg1 _ = V m c main_arg1 _
  congr 1
  funext a
  apply Fin.ext
  match a with
  | ⟨0, _⟩ => show win0_1.index t 0 * 1 + 1 * u.val = t.val / 4; rw [(idx_facts t).2.1.1]; omega
  | ⟨1, _⟩ => show win0_1.index t 1 * 512 + 1 * j.val = j.val; rw [(idx_facts t).2.1.2.1]; omega
  | ⟨2, _⟩ => show win0_1.index t 2 * 1024 + 1 * d.val = d.val; rw [(idx_facts t).2.1.2.2]; omega

theorem iblk2_apply (c : Dev nD) (t : Fin cfg0.N) (u u' : Fin 1) (j : Fin 512) :
    (iblk m c 2 t : Vec F S1x1x512 .f32) (ix3 u u' j) = V m c main_v7 (ix3 (bOf t) (0 : Fin 1) j) := by
  unfold iblk
  rw [View.read_apply]
  show V m c main_v7 _ = V m c main_v7 _
  congr 1
  funext a
  apply Fin.ext
  match a with
  | ⟨0, _⟩ => show win0_2.index t 0 * 1 + 1 * u.val = t.val / 4; rw [(idx_facts t).2.2.1.1]; omega
  | ⟨1, _⟩ => show win0_2.index t 1 * 1 + 1 * u'.val = 0; rw [(idx_facts t).2.2.1.2.1]; omega
  | ⟨2, _⟩ => show win0_2.index t 2 * 512 + 1 * j.val = j.val; rw [(idx_facts t).2.2.1.2.2]; omega

theorem iblk3_apply (c : Dev nD) (t : Fin cfg0.N) (d k : Fin 1024) :
    (iblk m c 3 t : Vec F S1024x1024 .bf16) (ix2 d k) = V m c main_v1 (ix2 d k) := by
  unfold iblk
  rw [View.read_apply]
  show V m c main_v1 _ = V m c main_v1 _
  congr 1
  funext a
  apply Fin.ext
  match a with
  | ⟨0, _⟩ => show win0_3.index t 0 * 1024 + 1 * d.val = d.val; rw [(idx_facts t).2.2.2.1.1]; omega
  | ⟨1, _⟩ => show win0_3.index t 1 * 1024 + 1 * k.val = k.val; rw [(idx_facts t).2.2.2.1.2]; omega

theorem iblk4_apply (c : Dev nD) (t : Fin cfg0.N) (k : Fin 1024) :
    (iblk m c 4 t : Vec F S1024 .f32) (ix1 k) = V m c main_arg4 (ix1 k) := by
  unfold iblk
  rw [View.read_apply]
  show V m c main_arg4 _ = V m c main_arg4 _
  congr 1
  funext a
  apply Fin.ext
  match a with
  | ⟨0, _⟩ => show win0_4.index t 0 * 1024 + 1 * k.val = k.val; rw [(idx_facts t).2.2.2.2.1]; omega

theorem iblk5_apply (c : Dev nD) (t : Fin cfg0.N) (d k : Fin 1024) :
    (iblk m c 5 t : Vec F S1024x1024 .bf16) (ix2 d k) = V m c main_v2 (ix2 d k) := by
  unfold iblk
  rw [View.read_apply]
  show V m c main_v2 _ = V m c main_v2 _
  congr 1
  funext a
  apply Fin.ext
  match a with
  | ⟨0, _⟩ => show win0_5.index t 0 * 1024 + 1 * d.val = d.val; rw [(idx_facts t).2.2.2.2.2.1.1]; omega
  | ⟨1, _⟩ => show win0_5.index t 1 * 1024 + 1 * k.val = k.val; rw [(idx_facts t).2.2.2.2.2.1.2]; omega

theorem iblk6_apply (c : Dev nD) (t : Fin cfg0.N) (k : Fin 1024) :
    (iblk m c 6 t : Vec F S1024 .f32) (ix1 k) = V m c main_arg6 (ix1 k) := by
  unfold iblk
  rw [View.read_apply]
  show V m c main_arg6 _ = V m c main_arg6 _
  congr 1
  funext a
  apply Fin.ext
  match a with
  | ⟨0, _⟩ => show win0_6.index t 0 * 1024 + 1 * k.val = k.val; rw [(idx_facts t).2.2.2.2.2.2.1]; omega

theorem iblk7_apply (c : Dev nD) (t : Fin cfg0.N) (d k : Fin 1024) :
    (iblk m c 7 t : Vec F S1024x1024 .bf16) (ix2 d k) = V m c main_v4 (ix2 d k) := by
  unfold iblk
  rw [View.read_apply]
  show V m c main_v4 _ = V m c main_v4 _
  congr 1
  funext a
  apply Fin.ext
  match a with
  | ⟨0, _⟩ => show win0_7.index t 0 * 1024 + 1 * d.val = d.val; rw [(idx_facts t).2.2.2.2.2.2.2.1.1]; omega
  | ⟨1, _⟩ => show win0_7.index t 1 * 1024 + 1 * k.val = k.val; rw [(idx_facts t).2.2.2.2.2.2.2.1.2]; omega

theorem iblk8_apply (c : Dev nD) (t : Fin cfg0.N) (d k : Fin 1024) :
    (iblk m c 8 t : Vec F S1024x1024 .bf16) (ix2 d k) = V m c main_v6 (ix2 d k) := by
  unfold iblk
  rw [View.read_apply]
  show V m c main_v6 _ = V m c main_v6 _
  congr 1
  funext a
  apply Fin.ext
  match a with
  | ⟨0, _⟩ => show win0_8.index t 0 * 1024 + 1 * d.val = d.val; rw [(idx_facts t).2.2.2.2.2.2.2.2.1.1]; omega
  | ⟨1, _⟩ => show win0_8.index t 1 * 1024 + 1 * k.val = k.val; rw [(idx_facts t).2.2.2.2.2.2.2.2.1.2]; omega

theorem iblk9_apply (c : Dev nD) (t : Fin cfg0.N) (k : Fin 1024) :
    (iblk m c 9 t : Vec F S1024 .f32) (ix1 k) = V m c main_arg8 (ix1 k) := by
  unfold iblk
  rw [View.read_apply]
  show V m c main_arg8 _ = V m c main_arg8 _
  congr 1
  funext a
  apply Fin.ext
  match a with
  | ⟨0, _⟩ => show win0_9.index t 0 * 1024 + 1 * k.val = k.val; rw [(idx_facts t).2.2.2.2.2.2.2.2.2.1]; omega

end AnyValues

/-! ## The arrays the region finds, over the extended reals -/

section AtIdeal

variable (m : (ℓ : Loc nD τ sig) → Buf (Elt Ideal) ℓ)

theorem V_v0 (c : Dev nD) : V m c main_v0
    = (((truncf .bf16 (m ((c : Thread nD τ).loc main_arg0) : FVec Ideal S8x2048x1024 .f32) bitsLt_bf16_f32 : FVec Ideal S8x2048x1024 .bf16)) : Buf (Elt Ideal) ((c : Thread nD τ).loc main_v0)) := by
  dsimp only [Gen.V, Gen.hostOps0]; after_results; try rfl

theorem V_v1 (c : Dev nD) : V m c main_v1
    = (((truncf .bf16 (m ((c : Thread nD τ).loc main_arg3) : FVec Ideal S1024x1024 .f32) bitsLt_bf16_f32 : FVec Ideal S1024x1024 .bf16)) : Buf (Elt Ideal) ((c : Thread nD τ).loc main_v1)) := by
  dsimp only [Gen.V, Gen.hostOps0]; after_results; try rfl

theorem V_v2 (c : Dev nD) : V m c main_v2
    = (((truncf .bf16 (m ((c : Thread nD τ).loc main_arg5) : FVec Ideal S1024x1024 .f32) bitsLt_bf16_f32 : FVec Ideal S1024x1024 .bf16)) : Buf (Elt Ideal) ((c : Thread nD τ).loc main_v2)) := by
  dsimp only [Gen.V, Gen.hostOps0]; after_results; try rfl

theorem V_v4 (c : Dev nD) : V m c main_v4
    = (((truncf .bf16 (extractStridedSlice S1024x1024 ![0, 0] (m ((c : Thread nD τ).loc main_arg7) : FVec Ideal S2048x1024 .f32) slices_S2048x1024_S1024x1024_0_0 : FVec Ideal S1024x1024 .f32) bitsLt_bf16_f32 : FVec Ideal S1024x1024 .bf16)) : Buf (Elt Ideal) ((c : Thread nD τ).loc main_v4)) := by
  dsimp only [Gen.V, Gen.hostOps0]; after_results; try rfl

theorem V_v6 (c : Dev nD) : V m c main_v6
    = (((truncf .bf16 (extractStridedSlice S1024x1024 ![1024, 0] (m ((c : Thread nD τ).loc main_arg7) : FVec Ideal S2048x1024 .f32) slices_S2048x1024_S1024x1024_1024_0 : FVec Ideal S1024x1024 .f32) bitsLt_bf16_f32 : FVec Ideal S1024x1024 .bf16)) : Buf (Elt Ideal) ((c : Thread nD τ).loc main_v6)) := by
  dsimp only [Gen.V, Gen.hostOps0]; after_results; try rfl

theorem V_v7 (c : Dev nD) : V m c main_v7
    = (((broadcastInDim S8x1x512 ![0, 2] bcast_S8x512_S8x1x512_0_2 (m ((c : Thread nD τ).loc main_arg2) : FVec Ideal S8x512 .f32) : FVec Ideal S8x1x512 .f32)) : Buf (Elt Ideal) ((c : Thread nD τ).loc main_v7)) := by
  dsimp only [Gen.V, Gen.hostOps0]; after_results; try rfl

/-- The query tile's entries are the query array's. -/
theorem x_entry (c : Dev nD) (t : Fin cfg0.N) (u : Fin 1) (r : Fin 512) (d : Fin 1024) :
    (iblk m c 0 t : Vec Ideal S1x512x1024 .bf16) (ix3 u r d)
      = m ((c : Thread nD τ).loc main_arg0) (ix3 (bOf t) (rowOf t r) d) := by
  rw [iblk0_apply, V_v0]; rfl

/-- The memory block's entries are the batch's memory rows. -/
theorem mem_entry (c : Dev nD) (t : Fin cfg0.N) (u : Fin 1) (j : Fin 512) (d : Fin 1024) :
    (iblk m c 1 t : Vec Ideal S1x512x1024 .f32) (ix3 u j d) = m ((c : Thread nD τ).loc main_arg1) (ix3 (bOf t) j d) := by
  rw [iblk1_apply, V_main_arg1]

/-- The mask block's entries are the batch's mask row. -/
theorem mask_entry (c : Dev nD) (t : Fin cfg0.N) (u u' : Fin 1) (j : Fin 512) :
    (iblk m c 2 t : Vec Ideal S1x1x512 .f32) (ix3 u u' j) = m ((c : Thread nD τ).loc main_arg2) (ix2 (bOf t) j) := by
  rw [iblk2_apply, V_v7]
  refine broadcastInDim_apply _ _ _ _ (ix2 (bOf t) j) fun a => ?_
  match a with
  | ⟨0, _⟩ => exact (if_neg (show ¬ ((8 : ℕ) = 1) by decide)).symm
  | ⟨1, _⟩ => exact (if_neg (show ¬ ((512 : ℕ) = 1) by decide)).symm

theorem w1_entry (c : Dev nD) (t : Fin cfg0.N) (d k : Fin 1024) :
    (iblk m c 3 t : Vec Ideal S1024x1024 .bf16) (ix2 d k) = m ((c : Thread nD τ).loc main_arg3) (ix2 d k) := by
  rw [iblk3_apply, V_v1]; rfl

theorem b1_entry (c : Dev nD) (t : Fin cfg0.N) (k : Fin 1024) :
    (iblk m c 4 t : Vec Ideal S1024 .f32) (ix1 k) = m ((c : Thread nD τ).loc main_arg4) (ix1 k) := by
  rw [iblk4_apply, V_main_arg4]

theorem wm_entry (c : Dev nD) (t : Fin cfg0.N) (d k : Fin 1024) :
    (iblk m c 5 t : Vec Ideal S1024x1024 .bf16) (ix2 d k) = m ((c : Thread nD τ).loc main_arg5) (ix2 d k) := by
  rw [iblk5_apply, V_v2]; rfl

theorem bm_entry (c : Dev nD) (t : Fin cfg0.N) (k : Fin 1024) :
    (iblk m c 6 t : Vec Ideal S1024 .f32) (ix1 k) = m ((c : Thread nD τ).loc main_arg6) (ix1 k) := by
  rw [iblk6_apply, V_main_arg6]

/-- The upper weight window holds the first 1024 rows of the last weight matrix. -/
theorem w2a_entry (c : Dev nD) (t : Fin cfg0.N) (d k : Fin 1024) :
    (iblk m c 7 t : Vec Ideal S1024x1024 .bf16) (ix2 d k)
      = m ((c : Thread nD τ).loc main_arg7) (ix2 (Fin.castAdd 1024 d : Fin (1024 + 1024)) k) := by
  rw [iblk7_apply, V_v4]
  exact slice2_axis0_apply 0 _ slices_S2048x1024_S1024x1024_0_0 d k (Fin.castAdd 1024 d : Fin (1024 + 1024)) (Nat.zero_add _).symm

/-- The lower weight window holds its last 1024 rows. -/
theorem w2b_entry (c : Dev nD) (t : Fin cfg0.N) (d k : Fin 1024) :
    (iblk m c 8 t : Vec Ideal S1024x1024 .bf16) (ix2 d k)
      = m ((c : Thread nD τ).loc main_arg7) (ix2 (Fin.natAdd 1024 d : Fin (1024 + 1024)) k) := by
  rw [iblk8_apply, V_v6]
  exact slice2_axis0_apply 1024 _ slices_S2048x1024_S1024x1024_1024_0 d k (Fin.natAdd 1024 d : Fin (1024 + 1024)) rfl

theorem b2_entry (c : Dev nD) (t : Fin cfg0.N) (k : Fin 1024) :
    (iblk m c 9 t : Vec Ideal S1024 .f32) (ix1 k) = m ((c : Thread nD τ).loc main_arg8) (ix1 k) := by
  rw [iblk9_apply, V_main_arg8]

end AtIdeal

end Cert.KernelIdeal.Blocks

end
-- ==== Proof.Spec.lean ====
import Idealize.ShloMosaic.Lib.ValueIdx
import Idealize.ShloMosaic.PureOps.Ideal.Laws

/-!
# Gated attention of queries over a memory: the result, entry by entry

For a batch `b`, a query position `l` and a hidden unit `h`:

* the query and every memory slot are sent through a rectified dense layer (`inDot`, `memDot`);
* the score of slot `j` is the inner product of the two projections divided by 32, lowered by a large multiple of
  `1 - mask`;
* the scores of one query are turned into weights by the softmax over the slots, spelt with the row maximum
  subtracted (`rowMax`, `expo`, `denom`, `weight`);
* the weights average the memory rows (`attended`);
* the query row and the averaged memory row, laid side by side, go through one more dense layer whose weight matrix
  has 2048 rows — equivalently the first 1024 rows act on the query and the last 1024 on the averaged memory (`pre`);
* the result is `logistic pre · tanh pre`.

Every float constant is kept as its binary word.
-/

noncomputable section

namespace Cert.AttnSpec

open Idealize.ShloMosaic Idealize.ShloMosaic.ValueIdx
open scoped BigOperators

/-- The words of the constants: `0`, `1`, `32`, `1e30` rounded to binary32, and `-∞`. -/
abbrev zeroW : EReal := Ideal.ofBits .f32 0x00000000#32
abbrev oneW : EReal := Ideal.ofBits .f32 0x3F800000#32
abbrev scaleW : EReal := Ideal.ofBits .f32 0x42000000#32
abbrev bigW : EReal := Ideal.ofBits .f32 0x7149F2CA#32
abbrev negInfW : EReal := Ideal.ofBits .f32 0xFF800000#32

/-- From `-∞` a maximum keeps its other operand. -/
theorem max_negInfW (y : EReal) : max negInfW y = y := by
  show max (Ideal.ofBits .f32 0xFF800000#32) y = y
  simp [Ideal.ofBits, Ideal.ieee]

/-- The maximum of finitely many numbers taken from `-∞`. -/
def foldMax {n : ℕ} (f : Fin n → EReal) : EReal := (Finset.univ : Finset (Fin n)).fold max negInfW f

section

variable (x : (⟨3, ![8, 2048, 1024]⟩ : Shape).Idx → EReal) (mem : (⟨3, ![8, 512, 1024]⟩ : Shape).Idx → EReal)
  (mask : (⟨2, ![8, 512]⟩ : Shape).Idx → EReal)
  (W1 : (⟨2, ![1024, 1024]⟩ : Shape).Idx → EReal) (b1 : (⟨1, ![1024]⟩ : Shape).Idx → EReal)
  (Wm : (⟨2, ![1024, 1024]⟩ : Shape).Idx → EReal) (bm : (⟨1, ![1024]⟩ : Shape).Idx → EReal)
  (W2 : (⟨2, ![2048, 1024]⟩ : Shape).Idx → EReal) (b2 : (⟨1, ![1024]⟩ : Shape).Idx → EReal)

/-- The query's projection: `relu (x · W1 + b1)`. -/
def inDot (b : Fin 8) (l : Fin 2048) (k : Fin 1024) : EReal :=
  max ((∑ d : Fin 1024, x (ix3 b l d) * W1 (ix2 d k)) + b1 (ix1 k)) zeroW

/-- A memory slot's projection: `relu (mem · Wm + bm)`. -/
def memDot (b : Fin 8) (j : Fin 512) (k : Fin 1024) : EReal :=
  max ((∑ d : Fin 1024, mem (ix3 b j d) * Wm (ix2 d k)) + bm (ix1 k)) zeroW

/-- The masked, scaled score of slot `j` for query `l`. -/
def score (b : Fin 8) (l : Fin 2048) (j : Fin 512) : EReal :=
  Ideal.div (∑ k : Fin 1024, inDot x W1 b1 b l k * memDot mem Wm bm b j k) scaleW - bigW * (oneW - mask (ix2 b j))

/-- The largest score of a query. -/
def rowMax (b : Fin 8) (l : Fin 2048) : EReal := foldMax fun j : Fin 512 => score x mem mask W1 b1 Wm bm b l j

/-- The exponential of a score lowered by the query's largest score. -/
def expo (b : Fin 8) (l : Fin 2048) (j : Fin 512) : EReal :=
  Ideal.exp (score x mem mask W1 b1 Wm bm b l j - rowMax x mem mask W1 b1 Wm bm b l)

/-- The softmax's denominator. -/
def denom (b : Fin 8) (l : Fin 2048) : EReal := ∑ j : Fin 512, expo x mem mask W1 b1 Wm bm b l j

/-- The softmax weight of slot `j`. -/
def weight (b : Fin 8) (l : Fin 2048) (j : Fin 512) : EReal :=
  Ideal.div (expo x mem mask W1 b1 Wm bm b l j) (denom x mem mask W1 b1 Wm bm b l)

/-- The weighted average of the memory rows. -/
def attended (b : Fin 8) (l : Fin 2048) (d : Fin 1024) : EReal :=
  ∑ j : Fin 512, weight x mem mask W1 b1 Wm bm b l j * mem (ix3 b j d)

/-- The gate's argument: the query through the upper half of `W2`, the averaged memory through the lower half,
    and the bias. -/
def pre (b : Fin 8) (l : Fin 2048) (h : Fin 1024) : EReal :=
  ((∑ d : Fin 1024, x (ix3 b l d) * W2 (ix2 (Fin.castAdd 1024 d : Fin (1024 + 1024)) h))
    + ∑ d : Fin 1024, attended x mem mask W1 b1 Wm bm b l d * W2 (ix2 (Fin.natAdd 1024 d : Fin (1024 + 1024)) h))
    + b2 (ix1 h)

/-- The result array. -/
def G : (⟨3, ![8, 2048, 1024]⟩ : Shape).Idx → EReal := fun i =>
  Ideal.logistic (pre x mem mask W1 b1 Wm bm W2 b2 (i 0) (i 1) (i 2))
    * Ideal.tanh (pre x mem mask W1 b1 Wm bm W2 b2 (i 0) (i 1) (i 2))

end

/-- A sum over `2048 = 1024 + 1024` terms is the sum of its first and of its last 1024 terms. -/
theorem sum_halves (f : Fin (1024 + 1024) → EReal) :
    ∑ c : Fin (1024 + 1024), f c = (∑ d : Fin 1024, f (Fin.castAdd 1024 d)) + ∑ d : Fin 1024, f (Fin.natAdd 1024 d) :=
  Fin.sum_univ_add f

end Cert.AttnSpec

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibMidUnit.lean ====
import Idealize.ShloMosaic.Lib.ValueLayout

/-!
# A unit axis in the middle

An array of shape `[a, 1, b]` and the array of shape `[a, b]` obtained by dropping its middle axis hold the same
entries in the same row-major order: the entry at `(i, 0, j)` of the one is the entry at `(i, j)` of the other.
So a shape cast in either direction, read at an index, reads the operand at the index with the same row and the
same column, whatever `a` and `b` are. This is how a batch of row vectors kept with a singleton time axis is
handed to, and taken back from, an operation on plain matrices.
-/

namespace Cert.LibMidUnit

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
    coordinate `u` is. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.LibMidUnit
-- ==== Proof.KPay.lean ====
import proofs.«126409_j6665789243993_2_alg».proof.Proof.Gen.KernelIdeal.Skeleton
import proofs.«126409_j6665789243993_2_alg».proof.Proof.Spec
import proofs.«126409_j6665789243993_2_alg».proof.Proof.LibPlainDot
import proofs.«126409_j6665789243993_2_alg».proof.Proof.LibDotRows
import proofs.«126409_j6665789243993_2_alg».proof.Proof.LibTileLayout
import proofs.«126409_j6665789243993_2_alg».proof.Proof.LibMidUnit
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

/-!
# The body's three stored values, entry by entry, over the extended reals

* the carried buffer receives the memory block's rectified projection;
* the softmax weights of a query tile are computed from the tile's rectified projection, the carried buffer and the
  batch's mask row;
* the output block is the gate of: the tile through the upper weight matrix, plus the weighted memory through the
  lower one, plus the bias.

Each is read at an index written by its coordinates; a change of float format does nothing here, a matrix product
into a zero accumulator is the plain sum of products, a lane reduction is the sum (or the maximum from `-∞`) along
the row.
-/

namespace Cert.KernelIdeal.Pay

open Cert.KernelIdeal Cert.KernelIdeal.Gen Cert.AttnSpec

/-! ## The operations under the spellings the body uses -/

theorem mm_plain {M K N : ℕ} {φ₁ φ₂ : FTy} (d : DotDims ⟨2, ![M, K]⟩ ⟨2, ![K, N]⟩ ⟨2, ![M, N]⟩) (h : Cert.LibPlainDot.Plain d)
    (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, l (ix2 p k) * r (ix2 k q) :=
  Cert.LibPlainDot.matmul_zero_apply d h none l r p q

theorem mm_rows {M K N : ℕ} {φ₁ φ₂ : FTy} (d : DotDims ⟨2, ![M, K]⟩ ⟨2, ![N, K]⟩ ⟨2, ![M, N]⟩) (h : Cert.LibDotRows.RowsRows d)
    (l : FVec Ideal ⟨2, ![M, K]⟩ φ₁) (r : FVec Ideal ⟨2, ![N, K]⟩ φ₂) (p : Fin M) (q : Fin N) :
    matmul d none l r (constant ⟨2, ![M, N]⟩ .f32 0x00000000#32) (ix2 p q) = ∑ k : Fin K, l (ix2 p k) * r (ix2 q k) :=
  Cert.LibDotRows.matmul_zero_apply d h none l r p q

theorem exp_at {s : Shape} {φ : FTy} (v : FVec Ideal s φ) (i : s.Idx) : exp v i = Ideal.exp (v i) := rfl
theorem tanh_at {s : Shape} {φ : FTy} (v : FVec Ideal s φ) (i : s.Idx) : tanh v i = Ideal.tanh (v i) := rfl
theorem logistic_at {s : Shape} {φ : FTy} (v : FVec Ideal s φ) (i : s.Idx) : logistic v i = Ideal.logistic (v i) := rfl

/-- The maximum of an `[a, b]` array along axis 1 from the accumulator's value is, at `p`, the maximum over row `p`. -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun q => src (ix2 p q)) := by
  refine (Ideal.multiReduction_maximumf_single src acc h hφ hacc (ix1 p)).trans ?_
  show (Finset.univ : Finset (Fin b)).fold max _ (fun q => src (h.lift (ix1 p) q)) = _
  refine congrArg (fun f => (Finset.univ : Finset (Fin b)).fold max (FloatOps.ofBits φ acc) f) (funext fun q => congrArg src ?_)
  funext c
  refine Fin.ext ?_
  match c with
  | ⟨0, _⟩ => rfl
  | ⟨1, _⟩ => rfl

/-! ## The carried buffer's new contents -/

theorem pay2_apply (v56 : FVec Ideal S1x512x1024 .f32) (v59 : FVec Ideal S1024x1024 .bf16) (v62 : FVec Ideal S1024 .f32)
    (j : Fin 512) (k : Fin 1024) :
    k0_pay2 (F := Ideal) v56 v59 v62 (ix2 j k)
      = max ((∑ d : Fin 1024, v56 (ix3 (0 : Fin 1) j d) * v59 (ix2 d k)) + v62 (ix1 k)) zeroW := by
  unfold k0_pay2
  rw [shapeCast_self, maximumf_apply, addf_apply, broadcast_apply,
    mm_plain (M := 512) (K := 1024) (N := 1024) dot_S512x1024_S1024x1024_S512x1024_1_0_0_1_n_n ⟨rfl, rfl, rfl, rfl, rfl, rfl⟩,
    broadcastTo_1b_ab_apply, shapeCast_a_1a_apply]
  simp only [truncf_apply, shapeCast_1ab_ab_apply, shapeCast_self]
  rfl

/-! ## The softmax weights of a tile -/

/-- The tile's rectified projection. -/
def qProj (v3 : FVec Ideal S1x512x1024 .bf16) (v5 : FVec Ideal S1024x1024 .bf16) (v8 : FVec Ideal S1024 .f32)
    (r : Fin 512) (k : Fin 1024) : EReal :=
  max ((∑ d : Fin 1024, v3 (ix3 (0 : Fin 1) r d) * v5 (ix2 d k)) + v8 (ix1 k)) zeroW

/-- The tile's masked scaled scores against the carried projection `v14`. -/
def tScore (v3 : FVec Ideal S1x512x1024 .bf16) (v5 : FVec Ideal S1024x1024 .bf16) (v8 : FVec Ideal S1024 .f32)
    (v14 : FVec Ideal S512x1024 .f32) (v18 : FVec Ideal S1x1x512 .f32) (r j : Fin 512) : EReal :=
  Ideal.div (∑ k : Fin 1024, qProj v3 v5 v8 r k * v14 (ix2 j k)) scaleW
    - bigW * (oneW - v18 (ix3 (0 : Fin 1) (0 : Fin 1) j))

/-- The score array the body forms before the softmax. -/
def scoreArr (v3 : FVec Ideal S1x512x1024 .bf16) (v5 : FVec Ideal S1024x1024 .bf16) (v8 : FVec Ideal S1024 .f32)
    (v14 : FVec Ideal S512x1024 .f32) (v18 : FVec Ideal S1x1x512 .f32) : FVec Ideal S512x512 .f32 :=
  subf
    (divf
      (matmul dot_S512x1024_S512x1024_S512x512_1_1_0_0_n_n none
        (maximumf
          (addf
            (matmul dot_S512x1024_S1024x1024_S512x1024_1_0_0_1_n_n none (k0_pay3 v3)
              (shapeCast S1024x1024 v5 shapeCasts_S1024x1024_S1024x1024 : FVec Ideal S1024x1024 .bf16) (constant S512x1024 .f32 0x00000000#32))
            (broadcastTo S512x1024 (shapeCast S1x1024 v8 shapeCasts_S1024_S1x1024 : FVec Ideal S1x1024 .f32) broadcasts_S1x1024_S512x1024))
          (broadcast S512x1024 (Scalar.ofBits .f32 0x00000000#32)))
        (v14 : FVec Ideal S512x1024 .f32) (constant S512x512 .f32 0x00000000#32))
      (broadcast S512x512 (Scalar.ofBits .f32 0x42000000#32)))
    (broadcastTo S512x512
      (mulf (broadcast S1x512 (Scalar.ofBits .f32 0x7149F2CA#32))
        (subf (broadcast S1x512 (Scalar.ofBits .f32 0x3F800000#32)) (shapeCast S1x512 v18 shapeCasts_S1x1x512_S1x512 : FVec Ideal S1x512 .f32)))
      broadcasts_S1x512_S512x512)

/-- A row's largest entry, spread back along the row. -/
def rowMaxB (s : FVec Ideal S512x512 .f32) : FVec Ideal S512x512 .f32 :=
  broadcastTo S512x512
    (shapeCast S512x1 (multiReduction .maximumf [1] S512 s 0xFF800000#32 reduces_S512x512_S512 (.inl rfl) rfl) shapeCasts_S512_S512x1)
    broadcasts_S512x1_S512x512

/-- The exponentials of the entries lowered by their row's largest entry. -/
def expos (s : FVec Ideal S512x512 .f32) : FVec Ideal S512x512 .f32 := exp (subf s (rowMaxB s))

/-- A row's sum, spread back along the row. -/
def rowSumB (e : FVec Ideal S512x512 .f32) : FVec Ideal S512x512 .f32 :=
  broadcastTo S512x512
    (shapeCast S512x1 (multiReduction .add [1] S512 e 0x00000000#32 reduces_S512x512_S512 (.inl rfl) rfl) shapeCasts_S512_S512x1)
    broadcasts_S512x1_S512x512

/-- The softmax along the rows as the body spells it. -/
def rowSoftmax (s : FVec Ideal S512x512 .f32) : FVec Ideal S512x512 .f32 := divf (expos s) (rowSumB (expos s))

theorem rowMaxB_apply (s : FVec Ideal S512x512 .f32) (r j : Fin 512) :
    rowMaxB s (ix2 r j) = foldMax fun j' : Fin 512 => s (ix2 r j') :=
  (Cert.TileLayout.broadcastTo_a1_ab_apply (a := 512) (b := 512) _ broadcasts_S512x1_S512x512 r j).trans
    ((Cert.TileLayout.shapeCast_a_a1_apply (a := 512) _ shapeCasts_S512_S512x1 r (0 : Fin 1)).trans
      (max_axis1_apply (a := 512) (b := 512) s 0xFF800000#32 reduces_S512x512_S512 (.inl rfl) rfl r))

theorem expos_apply (s : FVec Ideal S512x512 .f32) (r j : Fin 512) :
    expos s (ix2 r j) = Ideal.exp (s (ix2 r j) - foldMax fun j' : Fin 512 => s (ix2 r j')) := by
  unfold expos
  rw [exp_at, subf_apply, rowMaxB_apply]

theorem rowSumB_apply (e : FVec Ideal S512x512 .f32) (r j : Fin 512) :
    rowSumB e (ix2 r j) = ∑ j1 : Fin 512, e (ix2 r j1) :=
  (Cert.TileLayout.broadcastTo_a1_ab_apply (a := 512) (b := 512) _ broadcasts_S512x1_S512x512 r j).trans
    ((Cert.TileLayout.shapeCast_a_a1_apply (a := 512) _ shapeCasts_S512_S512x1 r (0 : Fin 1)).trans
      (Cert.TileLayout.sum_axis1_apply (a := 512) (b := 512) e 0x00000000#32 reduces_S512x512_S512 (.inl rfl) rfl r))

theorem rowSoftmax_apply (s : FVec Ideal S512x512 .f32) (r j : Fin 512) :
    rowSoftmax s (ix2 r j)
      = Ideal.div (Ideal.exp (s (ix2 r j) - foldMax fun j' : Fin 512 => s (ix2 r j')))
          (∑ j1 : Fin 512, Ideal.exp (s (ix2 r j1) - foldMax fun j' : Fin 512 => s (ix2 r j'))) := by
  unfold rowSoftmax
  rw [divf_apply, expos_apply, rowSumB_apply]
  simp only [expos_apply]

theorem pay4_eq (v3 : FVec Ideal S1x512x1024 .bf16) (v5 : FVec Ideal S1024x1024 .bf16) (v8 : FVec Ideal S1024 .f32)
    (v14 : FVec Ideal S512x1024 .f32) (v18 : FVec Ideal S1x1x512 .f32) :
    k0_pay4 (F := Ideal) v3 v5 v8 v14 v18 = rowSoftmax (scoreArr v3 v5 v8 v14 v18) := rfl

theorem scoreArr_apply (v3 : FVec Ideal S1x512x1024 .bf16) (v5 : FVec Ideal S1024x1024 .bf16) (v8 : FVec Ideal S1024 .f32)
    (v14 : FVec Ideal S512x1024 .f32) (v18 : FVec Ideal S1x1x512 .f32) (r j : Fin 512) :
    scoreArr v3 v5 v8 v14 v18 (ix2 r j) = tScore v3 v5 v8 v14 v18 r j := by
  unfold scoreArr tScore
  rw [subf_apply, divf_apply, broadcast_apply,
    mm_rows (M := 512) (K := 1024) (N := 512) dot_S512x1024_S512x1024_S512x512_1_1_0_0_n_n ⟨rfl, rfl, rfl, rfl, rfl, rfl⟩,
    broadcastTo_1b_ab_apply, mulf_apply, subf_apply, broadcast_apply, broadcast_apply,
    Cert.LibMidUnit.shapeCast_a1b_ab_apply]
  refine congrArg₂ (fun a b => Ideal.div a scaleW - b) (Finset.sum_congr rfl fun k _ => congrArg (· * v14 (ix2 j k)) ?_) rfl
  unfold qProj k0_pay3
  rw [maximumf_apply, addf_apply, broadcast_apply,
    mm_plain (M := 512) (K := 1024) (N := 1024) dot_S512x1024_S1024x1024_S512x1024_1_0_0_1_n_n ⟨rfl, rfl, rfl, rfl, rfl, rfl⟩,
    broadcastTo_1b_ab_apply, shapeCast_a_1a_apply]
  simp only [shapeCast_1ab_ab_apply, shapeCast_self]
  rfl

/-! ## The output block -/

theorem pay1_apply (v4 : FVec Ideal S512x1024 .bf16) (v34 : FVec Ideal S512x512 .f32) (v35 : FVec Ideal S1x512x1024 .f32)
    (v39 : FVec Ideal S1024x1024 .bf16) (v42 : FVec Ideal S1024x1024 .bf16) (v46 : FVec Ideal S1024 .f32)
    (u : Fin 1) (r : Fin 512) (h : Fin 1024) :
    k0_pay1 (F := Ideal) v4 v34 v35 v39 v42 v46 (ix3 u r h)
      = Ideal.logistic (((∑ d : Fin 1024, v4 (ix2 r d) * v39 (ix2 d h))
            + ∑ d : Fin 1024, (∑ j : Fin 512, v34 (ix2 r j) * v35 (ix3 (0 : Fin 1) j d)) * v42 (ix2 d h)) + v46 (ix1 h))
        * Ideal.tanh (((∑ d : Fin 1024, v4 (ix2 r d) * v39 (ix2 d h))
            + ∑ d : Fin 1024, (∑ j : Fin 512, v34 (ix2 r j) * v35 (ix3 (0 : Fin 1) j d)) * v42 (ix2 d h)) + v46 (ix1 h)) := by
  have hz : ∀ (r : Fin 512) (h : Fin 1024),
      addf (addf
        (matmul dot_S512x1024_S1024x1024_S512x1024_1_0_0_1_n_n none v4
          (shapeCast S1024x1024 v39 shapeCasts_S1024x1024_S1024x1024) (constant S512x1024 .f32 0x00000000#32))
        (matmul dot_S512x1024_S1024x1024_S512x1024_1_0_0_1_n_n none
          (truncf .bf16 (matmul dot_S512x512_S512x1024_S512x1024_1_0_0_1_n_n none v34
            (shapeCast S512x1024 v35 shapeCasts_S1x512x1024_S512x1024) (constant S512x1024 .f32 0x00000000#32)) bitsLt_bf16_f32)
          (shapeCast S1024x1024 v42 shapeCasts_S1024x1024_S1024x1024) (constant S512x1024 .f32 0x00000000#32)))
        (broadcastTo S512x1024 (shapeCast S1x1024 v46 shapeCasts_S1024_S1x1024) broadcasts_S1x1024_S512x1024) (ix2 r h)
      = ((∑ d : Fin 1024, v4 (ix2 r d) * v39 (ix2 d h))
            + ∑ d : Fin 1024, (∑ j : Fin 512, v34 (ix2 r j) * v35 (ix3 (0 : Fin 1) j d)) * v42 (ix2 d h)) + v46 (ix1 h) := fun r h => by
    rw [addf_apply, addf_apply,
      mm_plain (M := 512) (K := 1024) (N := 1024) dot_S512x1024_S1024x1024_S512x1024_1_0_0_1_n_n ⟨rfl, rfl, rfl, rfl, rfl, rfl⟩,
      mm_plain (M := 512) (K := 1024) (N := 1024) dot_S512x1024_S1024x1024_S512x1024_1_0_0_1_n_n ⟨rfl, rfl, rfl, rfl, rfl, rfl⟩,
      broadcastTo_1b_ab_apply, shapeCast_a_1a_apply]
    simp only [shapeCast_self, truncf_apply, mm_plain (M := 512) (K := 512) (N := 1024) dot_S512x512_S512x1024_S512x1024_1_0_0_1_n_n ⟨rfl, rfl, rfl, rfl, rfl, rfl⟩,
      shapeCast_1ab_ab_apply]
  unfold k0_pay1
  rw [shapeCast_ab_1ab_apply, mulf_apply, logistic_at, tanh_at, hz]

end Cert.KernelIdeal.Pay

end
-- ==== Proof.KTile.lean ====
import proofs.«126409_j6665789243993_2_alg».proof.Proof.KPay

noncomputable section

open Idealize.ShloMosaic Idealize.ShloMosaic.ValueIdx
open scoped BigOperators

/-!
# One tile against the specification

A grid point works on one batch `b` and on 512 query rows. If the blocks it is handed hold the matching entries of
the argument arrays — the query tile those rows of `x`, the memory and mask blocks batch `b`'s memory and mask row,
the weight and bias blocks the whole weight arrays, the two halves of the last weight matrix its upper and lower 1024
rows — then

* what the body stores into the carried buffer is batch `b`'s memory projection;
* given that the carried buffer holds that projection, each entry of the output block is the specification's entry at
  the same batch, global row and hidden unit: the body's operations are, entry by entry, the specification's own.
-/

namespace Cert.KernelIdeal.Tile

open Cert.KernelIdeal Cert.KernelIdeal.Gen Cert.AttnSpec Cert.KernelIdeal.Pay

/-- The carried buffer's new contents are the batch's memory projection. -/
theorem proj_entry (mem : (⟨3, ![8, 512, 1024]⟩ : Shape).Idx → EReal)
    (Wm : (⟨2, ![1024, 1024]⟩ : Shape).Idx → EReal) (bm : (⟨1, ![1024]⟩ : Shape).Idx → EReal) (b : Fin 8)
    (MEM : FVec Ideal S1x512x1024 .f32) (WMb : FVec Ideal S1024x1024 .bf16) (BM : FVec Ideal S1024 .f32)
    (hMEM : ∀ (u : Fin 1) (j : Fin 512) (d : Fin 1024), MEM (ix3 u j d) = mem (ix3 b j d))
    (hWM : ∀ d k : Fin 1024, WMb (ix2 d k) = Wm (ix2 d k)) (hBM : ∀ k : Fin 1024, BM (ix1 k) = bm (ix1 k))
    (j : Fin 512) (k : Fin 1024) :
    k0_pay2 (F := Ideal) MEM WMb BM (ix2 j k) = memDot mem Wm bm b j k := by
  rw [pay2_apply]
  simp only [hMEM, hWM, hBM]
  rfl

/-- An entry of the output block is the specification's. -/
theorem out_entry (x : (⟨3, ![8, 2048, 1024]⟩ : Shape).Idx → EReal) (mem : (⟨3, ![8, 512, 1024]⟩ : Shape).Idx → EReal)
    (mask : (⟨2, ![8, 512]⟩ : Shape).Idx → EReal)
    (W1 : (⟨2, ![1024, 1024]⟩ : Shape).Idx → EReal) (b1 : (⟨1, ![1024]⟩ : Shape).Idx → EReal)
    (Wm : (⟨2, ![1024, 1024]⟩ : Shape).Idx → EReal) (bm : (⟨1, ![1024]⟩ : Shape).Idx → EReal)
    (W2 : (⟨2, ![2048, 1024]⟩ : Shape).Idx → EReal) (b2 : (⟨1, ![1024]⟩ : Shape).Idx → EReal)
    (b : Fin 8) (row : Fin 512 → Fin 2048)
    (X : FVec Ideal S1x512x1024 .bf16) (MEM : FVec Ideal S1x512x1024 .f32) (MK : FVec Ideal S1x1x512 .f32)
    (W1b : FVec Ideal S1024x1024 .bf16) (B1 : FVec Ideal S1024 .f32) (SC : FVec Ideal S512x1024 .f32)
    (W2a W2b : FVec Ideal S1024x1024 .bf16) (B2 : FVec Ideal S1024 .f32)
    (hX : ∀ (u : Fin 1) (r : Fin 512) (d : Fin 1024), X (ix3 u r d) = x (ix3 b (row r) d))
    (hMEM : ∀ (u : Fin 1) (j : Fin 512) (d : Fin 1024), MEM (ix3 u j d) = mem (ix3 b j d))
    (hMK : ∀ (u u' : Fin 1) (j : Fin 512), MK (ix3 u u' j) = mask (ix2 b j))
    (hW1 : ∀ d k : Fin 1024, W1b (ix2 d k) = W1 (ix2 d k)) (hB1 : ∀ k : Fin 1024, B1 (ix1 k) = b1 (ix1 k))
    (hSC : ∀ (j : Fin 512) (k : Fin 1024), SC (ix2 j k) = memDot mem Wm bm b j k)
    (hW2a : ∀ d k : Fin 1024, W2a (ix2 d k) = W2 (ix2 (Fin.castAdd 1024 d : Fin (1024 + 1024)) k))
    (hW2b : ∀ d k : Fin 1024, W2b (ix2 d k) = W2 (ix2 (Fin.natAdd 1024 d : Fin (1024 + 1024)) k))
    (hB2 : ∀ k : Fin 1024, B2 (ix1 k) = b2 (ix1 k))
    (u : Fin 1) (r : Fin 512) (h : Fin 1024) :
    k0_pay1 (F := Ideal) (k0_pay3 X) (k0_pay4 X W1b B1 SC MK) MEM W2a W2b B2 (ix3 u r h)
      = G x mem mask W1 b1 Wm bm W2 b2 (ix3 b (row r) h) := by
  have hq : ∀ (r : Fin 512) (k : Fin 1024), qProj X W1b B1 r k = inDot x W1 b1 b (row r) k := fun r k => by
    unfold qProj inDot
    simp only [hX, hW1, hB1]
  have hs : ∀ r j : Fin 512, tScore X W1b B1 SC MK r j = score x mem mask W1 b1 Wm bm b (row r) j := fun r j => by
    unfold tScore score
    simp only [hq, hSC, hMK]
  have hw : ∀ r j : Fin 512, k0_pay4 (F := Ideal) X W1b B1 SC MK (ix2 r j) = weight x mem mask W1 b1 Wm bm b (row r) j :=
    fun r j => by
      rw [pay4_eq, rowSoftmax_apply]
      simp only [scoreArr_apply, hs]
      rfl
  have h3 : ∀ (r : Fin 512) (d : Fin 1024), k0_pay3 (F := Ideal) X (ix2 r d) = x (ix3 b (row r) d) := fun r d => by
    unfold k0_pay3
    rw [shapeCast_1ab_ab_apply, hX]
  rw [pay1_apply]
  simp only [h3, hw, hMEM, hW2a, hW2b, hB2]
  rfl

end Cert.KernelIdeal.Tile

end
-- ==== Proof.KValue.lean ====
import proofs.«126409_j6665789243993_2_alg».proof.Proof.KPieces
import proofs.«126409_j6665789243993_2_alg».proof.Proof.KBlocks
import proofs.«126409_j6665789243993_2_alg».proof.Proof.KTile

noncomputable section

open Idealize.ShloMosaic Idealize.ShloMosaic.TcCoe Idealize.SL.Sem Idealize.ShloMosaic.ValueIdx
open Idealize.ShloMosaic.Pipeline (Dat)

/-!
# The kernel's result array is the specification

* The carried buffer: after every grid point it holds the memory projection of that point's batch. At the first
  point of a batch the body has just stored it; at the other three points nothing is stored and the point before
  belongs to the same batch. (Induction along the grid; never an enumeration of its 32 points.)
* So at every point the output block written back is the specification read through the block: at a batch's first
  point over the projection just stored, elsewhere over the projection carried from the point before.
* The 32 output blocks tile the result array — row `l` of batch `b` lies in the block of point `4 b + l / 512` — so
  the array ends holding the specification.
-/

namespace Cert.KernelIdeal.Bridge

open Cert.KernelIdeal Cert.KernelIdeal.Gen Cert.AttnSpec Cert.KernelIdeal.Blocks

variable (m : (ℓ : Loc nD τ sig) → Buf (Elt Ideal) ℓ) (ρ : Dev nD → PrngReg)

/-- The specification's result of the nine argument arrays as launched. -/
def result (c : Dev nD) : Buf (Elt Ideal) ((c : Thread nD τ).loc main_v8) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- At a batch's first point the carried buffer ends holding the batch's memory projection. -/
theorem carried_first (c : Dev nD) (t : Fin cfg0.N) (h0 : t.val % 4 = 0) (j : Fin 512) (k : Fin 1024) :
    (outsAt0 m c t.val t.isLt).2 (ix2 j k) = memDot (m ((c : Thread nD τ).loc main_arg1)) (m ((c : Thread nD τ).loc main_arg5)) (m ((c : Thread nD τ).loc main_arg6)) (bOf t) j k := by
  rw [outsAt0_A m c t h0]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) (ix2 j k)).trans ?_
  exact Tile.proj_entry (m ((c : Thread nD τ).loc main_arg1)) (m ((c : Thread nD τ).loc main_arg5)) (m ((c : Thread nD τ).loc main_arg6)) (bOf t) (iblk m c 1 t) (iblk m c 5 t) (iblk m c 6 t)
    (fun u j d => mem_entry m c t u j d) (fun d k => wm_entry m c t d k) (fun k => bm_entry m c t k) j k

/-- After every point the carried buffer holds the memory projection of the point's batch. -/
theorem carried (c : Dev nD) : ∀ (n : ℕ) (hn : n < cfg0.N) (j : Fin 512) (k : Fin 1024),
    (outsAt0 m c n hn).2 (ix2 j k) = memDot (m ((c : Thread nD τ).loc main_arg1)) (m ((c : Thread nD τ).loc main_arg5)) (m ((c : Thread nD τ).loc main_arg6)) (bOf ⟨n, hn⟩) j k
  | 0, hn, j, k => carried_first m c ⟨0, hn⟩ rfl j k
  | n + 1, hn, j, k => by
    by_cases h0 : (n + 1) % 4 = 0
    · exact carried_first m c ⟨n + 1, hn⟩ h0 j k
    · have hB : ¬(⟨n + 1, hn⟩ : Fin cfg0.N).val % 4 = 0 := h0
      rw [outsAt0_B m c ⟨n + 1, hn⟩ hB]
      dsimp only
      unfold sout0_B_0
      have hb : bOf ⟨n + 1, hn⟩ = bOf ⟨n, Nat.lt_of_succ_lt hn⟩ := Fin.ext (by show (n + 1) / 4 = n / 4; omega)
      rw [hb]
      exact carried c n (Nat.lt_of_succ_lt hn) j k

/-- Over a carried buffer holding the batch's memory projection, the block the body stores is the specification read
    through the point's output block. -/
theorem tile_eq (c : Dev nD) (t : Fin cfg0.N) (SC : Vec Ideal S512x1024 .f32)
    (hSC : ∀ (j : Fin 512) (k : Fin 1024), SC (ix2 j k) = memDot (m ((c : Thread nD τ).loc main_arg1)) (m ((c : Thread nD τ).loc main_arg5)) (m ((c : Thread nD τ).loc main_arg6)) (bOf t) j k) :
    k0_pay1 (F := Ideal) (k0_pay3 (iblk m c 0 t)) (k0_pay4 (iblk m c 0 t) (iblk m c 3 t) (iblk m c 4 t) SC (iblk m c 2 t))
        (iblk m c 1 t) (iblk m c 7 t) (iblk m c 8 t) (iblk m c 9 t)
      = ((cfg0.win 10).blk t).view.read (Elt Ideal) (result m c) := by
  funext y
  obtain ⟨u, r, h, rfl⟩ : ∃ (u : Fin 1) (r : Fin 512) (h : Fin 1024), y = ix3 u r h := ⟨y 0, y 1, y 2, eq_ix3 y⟩
  rw [View.read_apply]
  refine (Tile.out_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bOf t) (rowOf t)
    (iblk m c 0 t) (iblk m c 1 t) (iblk m c 2 t) (iblk m c 3 t) (iblk m c 4 t) SC (iblk m c 7 t) (iblk m c 8 t) (iblk m c 9 t)
    (fun u r d => x_entry m c t u r d) (fun u j d => mem_entry m c t u j d) (fun u u' j => mask_entry m c t u u' j)
    (fun d k => w1_entry m c t d k) (fun k => b1_entry m c t k) hSC
    (fun d k => w2a_entry m c t d k) (fun d k => w2b_entry m c t d k) (fun k => b2_entry m c t k) u r h).trans ?_
  show result m c (ix3 (bOf t) (rowOf t r) h) = result m c _
  congr 1
  funext a
  apply Fin.ext
  obtain ⟨-, -, -, -, -, -, -, -, -, -, e0, e1, e2⟩ := idx_facts t
  match a with
  | ⟨0, _⟩ => show t.val / 4 = win0_10.index t 0 * 1 + 1 * u.val; rw [e0]; omega
  | ⟨1, _⟩ => show t.val % 4 * 512 + r.val = win0_10.index t 1 * 512 + 1 * r.val; rw [e1]; omega
  | ⟨2, _⟩ => show h.val = win0_10.index t 2 * 1024 + 1 * h.val; rw [e2]; omega

/-- What point `t` writes back is the specification read through its block. -/
theorem flushed_eq (c : Dev nD) (t : Fin cfg0.N) :
    (dats m 0 c).flushed 10 t = ((cfg0.win 10).blk t).view.read (Elt Ideal) (result m c) := by
  by_cases h0 : t.val % 4 = 0
  · rw [Value.flushed10_A m c t h0]
    show out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) = _
    refine (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).trans ?_
    exact tile_eq m c t _ fun j k =>
      Tile.proj_entry (m ((c : Thread nD τ).loc main_arg1)) (m ((c : Thread nD τ).loc main_arg5)) (m ((c : Thread nD τ).loc main_arg6)) (bOf t) (iblk m c 1 t) (iblk m c 5 t) (iblk m c 6 t)
        (fun u j d => mem_entry m c t u j d) (fun d k => wm_entry m c t d k) (fun k => bm_entry m c t k) j k
  · rw [Value.flushed10_B m c t h0]
    show out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 = _
    refine (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2).trans ?_
    refine tile_eq m c t _ fun j k => ?_
    have hb : bOf ⟨t.val - 1, Nat.lt_of_le_of_lt (Nat.sub_le _ _) t.isLt⟩ = bOf t :=
      Fin.ext (by show (t.val - 1) / 4 = t.val / 4; omega)
    rw [← hb]
    exact carried m c (t.val - 1) _ j k

/-- An index of the result array lies in point `t`'s block iff each coordinate lies in the block's range. -/
theorem mem_blk (t : Fin cfg0.N) (i : S8x2048x1024.Idx) :
    i ∈ ((cfg0.win 10).blk t).view.set ↔ ∀ a : Fin 3, win0_10.index t a * S1x512x1024.size a ≤ (i a).val
      ∧ (i a).val < win0_10.index t a * S1x512x1024.size a + S1x512x1024.size a := by
  show i ∈ ((View.whole main_v8).slice (win0_10.rect t)).set ↔ _
  rw [View.set_slice_whole, Rect.mem_set_unit]
  exact Iff.rfl

/-- Every index of the result array lies in some point's block: the one of its batch and of its row's tile. -/
theorem cover (i : S8x2048x1024.Idx) :
    ∃ t : Fin cfg0.N, (cfg0.win 10).flush t = true ∧ i ∈ ((cfg0.win 10).blk t).view.set := by
  have h0 : (i 0).val < 8 := (i 0).isLt
  have h1 : (i 1).val < 2048 := (i 1).isLt
  have h2 : (i 2).val < 1024 := (i 2).isLt
  have hN : cfg0.N = 32 := N_0
  have hlt : (i 0).val * 4 + (i 1).val / 512 < cfg0.N := by omega
  refine ⟨⟨(i 0).val * 4 + (i 1).val / 512, hlt⟩, flush0_10 _, ?_⟩
  rw [mem_blk]
  obtain ⟨-, -, -, -, -, -, -, -, -, -, e0, e1, e2⟩ := idx_facts ⟨(i 0).val * 4 + (i 1).val / 512, hlt⟩
  have e0' : win0_10.index ⟨(i 0).val * 4 + (i 1).val / 512, hlt⟩ 0 = ((i 0).val * 4 + (i 1).val / 512) / 4 := e0
  have e1' : win0_10.index ⟨(i 0).val * 4 + (i 1).val / 512, hlt⟩ 1 = ((i 0).val * 4 + (i 1).val / 512) % 4 := e1
  intro a
  match a with
  | ⟨0, _⟩ =>
    show win0_10.index _ 0 * 1 ≤ (i 0).val ∧ (i 0).val < win0_10.index _ 0 * 1 + 1
    rw [e0']; omega
  | ⟨1, _⟩ =>
    show win0_10.index _ 1 * 512 ≤ (i 1).val ∧ (i 1).val < win0_10.index _ 1 * 512 + 512
    rw [e1']; omega
  | ⟨2, _⟩ =>
    show win0_10.index _ 2 * 1024 ≤ (i 2).val ∧ (i 2).val < win0_10.index _ 2 * 1024 + 1024
    rw [e2]; omega

/-- The result array ends holding the specification. -/
theorem final (c : Dev nD) : (dats m 0 c).arrAt 10 cfg0.N = result m c :=
  (dats m 0 c).arrAt_eq_of_cover 10 (result m c) (fun t _ => flushed_eq m c t) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Bridge

end
-- ==== Proof.RefTerm.lean ====
import proofs.«126409_j6665789243993_2_alg».proof.Proof.Gen.ReferenceIdeal

/-!
# The reference's result as a composition of seven stages

The reference computes, on whole arrays: the two rectified projections (`inProj`, `memProj`), the masked scaled
scores (`scores`), their softmax over the memory slots (`softmax`), the weighted memory (`attend`), the gate's
argument from the query and the weighted memory laid side by side (`gateArg`), and the gate (`gate`). Each stage
is the reference's own operations on its operands; a value used twice inside a stage is the stage's argument, so
no term is repeated.
-/

noncomputable section

namespace Cert.ReferenceIdeal.RefTerm

open Cert.ReferenceIdeal Cert.ReferenceIdeal.Gen Idealize.ShloMosaic

variable {F : FTy → Type} [FloatOps F]

/-- The contents of a binary32 array of the given shape. -/
abbrev Arr (F : FTy → Type) [FloatOps F] (s : Shape) : Type := (⟨s, .f32⟩ : BufTy).Contents (Elt F)

/-- `relu (x · W1 + b1)` on the whole query array. -/
def inProj (x : Arr F S8x2048x1024) (W1 : Arr F S1024x1024) (b1 : Arr F S1024) : Arr F S8x2048x1024 :=
  maximumf
    (addf (Host.dotGeneral dot_S8x2048x1024_S1024x1024_S8x2048x1024_2_0_01_1_n_n none x W1)
      (broadcastInDim S8x2048x1024 ![0, 1, 2] bcast_S1x1x1024_S8x2048x1024_0_1_2
        (broadcastInDim S1x1x1024 ![2] bcast_S1024_S1x1x1024_2 b1)))
    (broadcastInDim S8x2048x1024 ![] bcast_S_S8x2048x1024 (constant S_ .f32 0x00000000#32))

/-- `relu (mem · Wm + bm)` on the whole memory array. -/
def memProj (mem : Arr F S8x512x1024) (Wm : Arr F S1024x1024) (bm : Arr F S1024) : Arr F S8x512x1024 :=
  maximumf
    (addf (Host.dotGeneral dot_S8x512x1024_S1024x1024_S8x512x1024_2_0_01_1_n_n none mem Wm)
      (broadcastInDim S8x512x1024 ![0, 1, 2] bcast_S1x1x1024_S8x512x1024_0_1_2
        (broadcastInDim S1x1x1024 ![2] bcast_S1024_S1x1x1024_2 bm)))
    (broadcastInDim S8x512x1024 ![] bcast_S_S8x512x1024 (constant S_ .f32 0x00000000#32))

/-- The scores: the two projections contracted over the hidden axis batch by batch, divided by 32, lowered by
    `1e30 · (1 - mask)`. -/
def scores (p : Arr F S8x2048x1024) (q : Arr F S8x512x1024) (mask : Arr F S8x512) : Arr F S8x2048x512 :=
  subf
    (Host.divf (Host.dotGeneral dot_S8x2048x1024_S8x512x1024_S8x2048x512_2_2_1_1_0_0 none p q)
      (broadcastInDim S8x2048x512 ![] bcast_S_S8x2048x512 (constant S_ .f32 0x42000000#32)))
    (broadcastInDim S8x2048x512 ![0, 1, 2] bcast_S8x1x512_S8x2048x512_0_1_2
      (mulf (broadcastInDim S8x1x512 ![] bcast_S_S8x1x512 (constant S_ .f32 0x7149F2CA#32))
        (subf (broadcastInDim S8x1x512 ![] bcast_S_S8x1x512 (constant S_ .f32 0x3F800000#32))
          (broadcastInDim S8x1x512 ![0, 2] bcast_S8x512_S8x1x512_0_2 mask))))

/-- The row maximum of the scores, spread back over the slots. -/
def rowMaxB (s : Arr F S8x2048x512) : Arr F S8x2048x512 :=
  broadcastInDim S8x2048x512 ![0, 1, 2] bcast_S8x2048x1_S8x2048x512_0_1_2
    (broadcastInDim S8x2048x1 ![0, 1] bcast_S8x2048_S8x2048x1_0_1
      (maximumf (broadcastInDim S8x2048 ![] bcast_S_S8x2048 (constant S_ .f32 0xFF800000#32))
        (Host.reduce FloatOps.maximumf s (constant S_ .f32 0xFF800000#32) reducesTo_S8x2048x512_S8x2048_d2 h_S_)))

/-- The exponentials of the scores lowered by their row maximum. -/
def expos (s : Arr F S8x2048x512) : Arr F S8x2048x512 := Host.exp (subf s (rowMaxB s))

/-- The exponentials divided by their row sum. -/
def normalize (e : Arr F S8x2048x512) : Arr F S8x2048x512 :=
  Host.divf e
    (broadcastInDim S8x2048x512 ![0, 1, 2] bcast_S8x2048x1_S8x2048x512_0_1_2
      (broadcastInDim S8x2048x1 ![0, 1] bcast_S8x2048_S8x2048x1_0_1
        (Host.reduceAdd e (constant S_ .f32 0x00000000#32) reducesTo_S8x2048x512_S8x2048_d2 h_S_)))

/-- The softmax of the scores over the memory slots. -/
def softmax (s : Arr F S8x2048x512) : Arr F S8x2048x512 := normalize (expos s)

/-- The memory rows averaged by the weights, batch by batch. -/
def attend (w : Arr F S8x2048x512) (mem : Arr F S8x512x1024) : Arr F S8x2048x1024 :=
  Host.dotGeneral dot_S8x2048x512_S8x512x1024_S8x2048x1024_2_1_1_2_0_0 none w mem

/-- The gate's argument: the query and the averaged memory side by side, times `W2`, plus `b2`. -/
def gateArg (x o : Arr F S8x2048x1024) (W2 : Arr F S2048x1024) (b2 : Arr F S1024) : Arr F S8x2048x1024 :=
  addf
    (Host.dotGeneral dot_S8x2048x2048_S2048x1024_S8x2048x1024_2_0_01_1_n_n none
      (concatenate S8x2048x2048 2 [⟨S8x2048x1024, x⟩, ⟨S8x2048x1024, o⟩] concatenates_S8x2048x1024_S8x2048x1024_S8x2048x2048_d2) W2)
    (broadcastInDim S8x2048x1024 ![0, 1, 2] bcast_S1x1x1024_S8x2048x1024_0_1_2
      (broadcastInDim S1x1x1024 ![2] bcast_S1024_S1x1x1024_2 b2))

/-- The gate: `1 / (1 + exp (-z))` times `tanh z`. -/
def gate (z : Arr F S8x2048x1024) : Arr F S8x2048x1024 :=
  mulf
    (Host.divf (broadcastInDim S8x2048x1024 ![] bcast_S_S8x2048x1024 (constant S_ .f32 0x3F800000#32))
      (addf (broadcastInDim S8x2048x1024 ![] bcast_S_S8x2048x1024 (constant S_ .f32 0x3F800000#32)) (Host.exp (Host.negf z))))
    (Host.tanh z)

/-- The reference's result, from its nine arguments. -/
def result (x : Arr F S8x2048x1024) (mem : Arr F S8x512x1024) (mask : Arr F S8x512) (W1 : Arr F S1024x1024) (b1 : Arr F S1024)
    (Wm : Arr F S1024x1024) (bm : Arr F S1024) (W2 : Arr F S2048x1024) (b2 : Arr F S1024) : Arr F S8x2048x1024 :=
  gate (gateArg x (attend (softmax (scores (inProj x W1 b1) (memProj mem Wm bm) mask)) mem) W2 b2)

end Cert.ReferenceIdeal.RefTerm

end
-- ==== Proof.RefRun.lean ====
import proofs.«126409_j6665789243993_2_alg».proof.Proof.RefTerm
import Idealize.ShloMosaic.Lib.StableHlo.Run

noncomputable section

/-!
# The reference's run

The reference is a straight line of 57 array operations. Every weakly fair execution of it terminates; at the end the
result buffer holds the seven stages of `RefTerm` composed on the contents the argument buffers had at the start, and the
argument buffers are unchanged. The line is cut into seven consecutive stretches, one per stage. For an arbitrary state of
the buffers, a stretch leaves its stage's value of the buffers it reads in one buffer, and leaves every buffer it does not
write as it was. The value of the result buffer after the whole line is then read off stretch by stretch, the last
stretch first, so that no stage's value is ever written out more than once.
-/

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 57 host operations, in order (the operations of a called function stand in its call's place). -/
abbrev ops : List (HloOp τ sig (Elt F)) :=
  [ binary main_arg0 main_arg3 main_v0 ((fun l r => Host.dotGeneral dot_S8x2048x1024_S1024x1024_S8x2048x1024_2_0_01_1_n_n none l r) : (⟨S8x2048x1024, .f32⟩ : BufTy).Contents (Elt F) → (⟨S1024x1024, .f32⟩ : BufTy).Contents (Elt F) → (⟨S8x2048x1024, .f32⟩ : BufTy).Contents (Elt F)),
    unary main_arg4 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v0 main_v2 main_v3 (addf : (⟨S8x2048x1024, .f32⟩ : BufTy).Contents (Elt F) → (⟨S8x2048x1024, .f32⟩ : BufTy).Contents (Elt F) → (⟨S8x2048x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x2048x1024, .f32⟩) main_call0_v0) (broadcastInDim S8x2048x1024 ![] bcast_S_S8x2048x1024),
    TRef.binary (TRef.of (T := ⟨S8x2048x1024, .f32⟩) main_v3) (TRef.of (T := ⟨S8x2048x1024, .f32⟩) main_call0_v0) (TRef.of (T := ⟨S8x2048x1024, .f32⟩) main_v4) maximumf,
    binary main_arg1 main_arg5 main_v5 ((fun l r => Host.dotGeneral dot_S8x512x1024_S1024x1024_S8x512x1024_2_0_01_1_n_n none l r) : (⟨S8x512x1024, .f32⟩ : BufTy).Contents (Elt F) → (⟨S1024x1024, .f32⟩ : BufTy).Contents (Elt F) → (⟨S8x512x1024, .f32⟩ : BufTy).Contents (Elt F)),
    unary main_arg6 main_v6 (broadcastInDim S1x1x1024 ![2] bcast_S1024_S1x1x1024_2 : (⟨S1024, .f32⟩ : BufTy).Contents (Elt F) → (⟨S1x1x1024, .f32⟩ : BufTy).Contents (Elt F)),
    unary main_v6 main_v7 (broadcastInDim S8x512x1024 ![0, 1, 2] bcast_S1x1x1024_S8x512x1024_0_1_2 : (⟨S1x1x1024, .f32⟩ : BufTy).Contents (Elt F) → (⟨S8x512x1024, .f32⟩ : BufTy).Contents (Elt F)),
    binary main_v5 main_v7 main_v8 (addf : (⟨S8x512x1024, .f32⟩ : BufTy).Contents (Elt F) → (⟨S8x512x1024, .f32⟩ : BufTy).Contents (Elt F) → (⟨S8x512x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x512x1024, .f32⟩) main_call1_v0) (broadcastInDim S8x512x1024 ![] bcast_S_S8x512x1024),
    TRef.binary (TRef.of (T := ⟨S8x512x1024, .f32⟩) main_v8) (TRef.of (T := ⟨S8x512x1024, .f32⟩) main_call1_v0) (TRef.of (T := ⟨S8x512x1024, .f32⟩) main_v9) maximumf,
    binary main_v4 main_v9 main_v10 ((fun l r => Host.dotGeneral dot_S8x2048x1024_S8x512x1024_S8x2048x512_2_2_1_1_0_0 none l r) : (⟨S8x2048x1024, .f32⟩ : BufTy).Contents (Elt F) → (⟨S8x512x1024, .f32⟩ : BufTy).Contents (Elt F) → (⟨S8x2048x512, .f32⟩ : BufTy).Contents (Elt F)),
    nullary main_cst (constant S_ .f32 0x42000000#32),
    unary main_cst main_v11 (broadcastInDim S8x2048x512 ![] bcast_S_S8x2048x512 : (⟨S_, .f32⟩ : BufTy).Contents (Elt F) → (⟨S8x2048x512, .f32⟩ : BufTy).Contents (Elt F)),
    binary main_v10 main_v11 main_v12 (Host.divf : (⟨S8x2048x512, .f32⟩ : BufTy).Contents (Elt F) → (⟨S8x2048x512, .f32⟩ : BufTy).Contents (Elt F) → (⟨S8x2048x512, .f32⟩ : BufTy).Contents (Elt F)),
    unary main_arg2 main_v13 (broadcastInDim S8x1x512 ![0, 2] bcast_S8x512_S8x1x512_0_2 : (⟨S8x512, .f32⟩ : BufTy).Contents (Elt F) → (⟨S8x1x512, .f32⟩ : BufTy).Contents (Elt F)),
    nullary main_cst_0 (constant S_ .f32 0x3F800000#32),
    unary main_cst_0 main_v14 (broadcastInDim S8x1x512 ![] bcast_S_S8x1x512 : (⟨S_, .f32⟩ : BufTy).Contents (Elt F) → (⟨S8x1x512, .f32⟩ : BufTy).Contents (Elt F)),
    binary main_v14 main_v13 main_v15 (subf : (⟨S8x1x512, .f32⟩ : BufTy).Contents (Elt F) → (⟨S8x1x512, .f32⟩ : BufTy).Contents (Elt F) → (⟨S8x1x512, .f32⟩ : BufTy).Contents (Elt F)),
    nullary main_cst_1 (constant S_ .f32 0x7149F2CA#32),
    unary main_cst_1 main_v16 (broadcastInDim S8x1x512 ![] bcast_S_S8x1x512 : (⟨S_, .f32⟩ : BufTy).Contents (Elt F) → (⟨S8x1x512, .f32⟩ : BufTy).Contents (Elt F)),
    binary main_v16 main_v15 main_v17 (mulf : (⟨S8x1x512, .f32⟩ : BufTy).Contents (Elt F) → (⟨S8x1x512, .f32⟩ : BufTy).Contents (Elt F) → (⟨S8x1x512, .f32⟩ : BufTy).Contents (Elt F)),
    unary main_v17 main_v18 (broadcastInDim S8x2048x512 ![0, 1, 2] bcast_S8x1x512_S8x2048x512_0_1_2 : (⟨S8x1x512, .f32⟩ : BufTy).Contents (Elt F) → (⟨S8x2048x512, .f32⟩ : BufTy).Contents (Elt F)),
    binary main_v12 main_v18 main_v19 (subf : (⟨S8x2048x512, .f32⟩ : BufTy).Contents (Elt F) → (⟨S8x2048x512, .f32⟩ : BufTy).Contents (Elt F) → (⟨S8x2048x512, .f32⟩ : BufTy).Contents (Elt F)),
    nullary main_cst_2 (constant S_ .f32 0xFF800000#32),
    binary main_v19 main_cst_2 main_v20 ((fun x v => Host.reduce FloatOps.maximumf x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    nullary main_cst_3 (constant S_ .f32 0xFF800000#32),
    unary main_cst_3 main_v21 (broadcastInDim S8x2048 ![] bcast_S_S8x2048 : (⟨S_, .f32⟩ : BufTy).Contents (Elt F) → (⟨S8x2048, .f32⟩ : BufTy).Contents (Elt F)),
    binary main_v21 main_v20 main_v22 (maximumf : (⟨S8x2048, .f32⟩ : BufTy).Contents (Elt F) → (⟨S8x2048, .f32⟩ : BufTy).Contents (Elt F) → (⟨S8x2048, .f32⟩ : BufTy).Contents (Elt F)),
    unary main_v22 main_v23 (broadcastInDim S8x2048x1 ![0, 1] bcast_S8x2048_S8x2048x1_0_1 : (⟨S8x2048, .f32⟩ : BufTy).Contents (Elt F) → (⟨S8x2048x1, .f32⟩ : BufTy).Contents (Elt F)),
    unary main_v23 main_v24 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    binary main_v19 main_v24 main_v25 (subf : (⟨S8x2048x512, .f32⟩ : BufTy).Contents (Elt F) → (⟨S8x2048x512, .f32⟩ : BufTy).Contents (Elt F) → (⟨S8x2048x512, .f32⟩ : BufTy).Contents (Elt F)),
    unary main_v25 main_v26 (Host.exp : (⟨S8x2048x512, .f32⟩ : BufTy).Contents (Elt F) → (⟨S8x2048x512, .f32⟩ : BufTy).Contents (Elt F)),
    nullary main_cst_4 (constant S_ .f32 0x00000000#32),
    binary main_v26 main_cst_4 main_v27 ((fun x v => Host.reduceAdd x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    unary main_v27 main_v28 (broadcastInDim S8x2048x1 ![0, 1] bcast_S8x2048_S8x2048x1_0_1 : (⟨S8x2048, .f32⟩ : BufTy).Contents (Elt F) → (⟨S8x2048x1, .f32⟩ : BufTy).Contents (Elt F)),
    unary main_v28 main_v29 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    binary main_v26 main_v29 main_v30 (Host.divf : (⟨S8x2048x512, .f32⟩ : BufTy).Contents (Elt F) → (⟨S8x2048x512, .f32⟩ : BufTy).Contents (Elt F) → (⟨S8x2048x512, .f32⟩ : BufTy).Contents (Elt F)),
    binary main_v30 main_arg1 main_v31 ((fun l r => Host.dotGeneral dot_S8x2048x512_S8x512x1024_S8x2048x1024_2_1_1_2_0_0 none l r) : (⟨S8x2048x512, .f32⟩ : BufTy).Contents (Elt F) → (⟨S8x512x1024, .f32⟩ : BufTy).Contents (Elt F) → (⟨S8x2048x1024, .f32⟩ : BufTy).Contents (Elt F)),
    binary main_arg0 main_v31 main_v32 ((fun a b => concatenate S8x2048x2048 2 [⟨S8x2048x1024, a⟩, ⟨S8x2048x1024, b⟩] concatenates_S8x2048x1024_S8x2048x1024_S8x2048x2048_d2) : (⟨S8x2048x1024, .f32⟩ : BufTy).Contents (Elt F) → (⟨S8x2048x1024, .f32⟩ : BufTy).Contents (Elt F) → (⟨S8x2048x2048, .f32⟩ : BufTy).Contents (Elt F)),
    binary main_v32 main_arg7 main_v33 ((fun l r => Host.dotGeneral dot_S8x2048x2048_S2048x1024_S8x2048x1024_2_0_01_1_n_n none l r) : (⟨S8x2048x2048, .f32⟩ : BufTy).Contents (Elt F) → (⟨S2048x1024, .f32⟩ : BufTy).Contents (Elt F) → (⟨S8x2048x1024, .f32⟩ : BufTy).Contents (Elt F)),
    unary main_arg8 main_v34 (broadcastInDim S1x1x1024 ![2] bcast_S1024_S1x1x1024_2 : (⟨S1024, .f32⟩ : BufTy).Contents (Elt F) → (⟨S1x1x1024, .f32⟩ : BufTy).Contents (Elt F)),
    unary main_v34 main_v35 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v33 main_v35 main_v36 (addf : (⟨S8x2048x1024, .f32⟩ : BufTy).Contents (Elt F) → (⟨S8x2048x1024, .f32⟩ : BufTy).Contents (Elt F) → (⟨S8x2048x1024, .f32⟩ : BufTy).Contents (Elt F)),
    unary main_v36 main_v37 (Host.negf : (⟨S8x2048x1024, .f32⟩ : BufTy).Contents (Elt F) → (⟨S8x2048x1024, .f32⟩ : BufTy).Contents (Elt F)),
    unary main_v37 main_v38 (Host.exp : (⟨S8x2048x1024, .f32⟩ : BufTy).Contents (Elt F) → (⟨S8x2048x1024, .f32⟩ : BufTy).Contents (Elt F)),
    nullary main_cst_5 (constant S_ .f32 0x3F800000#32),
    unary main_cst_5 main_v39 (broadcastInDim S8x2048x1024 ![] bcast_S_S8x2048x1024 : (⟨S_, .f32⟩ : BufTy).Contents (Elt F) → (⟨S8x2048x1024, .f32⟩ : BufTy).Contents (Elt F)),
    binary main_v39 main_v38 main_v40 (addf : (⟨S8x2048x1024, .f32⟩ : BufTy).Contents (Elt F) → (⟨S8x2048x1024, .f32⟩ : BufTy).Contents (Elt F) → (⟨S8x2048x1024, .f32⟩ : BufTy).Contents (Elt F)),
    nullary main_cst_6 (constant S_ .f32 0x3F800000#32),
    unary main_cst_6 main_v41 (broadcastInDim S8x2048x1024 ![] bcast_S_S8x2048x1024 : (⟨S_, .f32⟩ : BufTy).Contents (Elt F) → (⟨S8x2048x1024, .f32⟩ : BufTy).Contents (Elt F)),
    binary main_v41 main_v40 main_v42 (Host.divf : (⟨S8x2048x1024, .f32⟩ : BufTy).Contents (Elt F) → (⟨S8x2048x1024, .f32⟩ : BufTy).Contents (Elt F) → (⟨S8x2048x1024, .f32⟩ : BufTy).Contents (Elt F)),
    unary main_v36 main_v43 (Host.tanh : (⟨S8x2048x1024, .f32⟩ : BufTy).Contents (Elt F) → (⟨S8x2048x1024, .f32⟩ : BufTy).Contents (Elt F)),
    binary main_v42 main_v43 main_v44 (mulf : (⟨S8x2048x1024, .f32⟩ : BufTy).Contents (Elt F) → (⟨S8x2048x1024, .f32⟩ : BufTy).Contents (Elt F) → (⟨S8x2048x1024, .f32⟩ : BufTy).Contents (Elt F)) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-! ## The seven stretches

The operations fall into seven consecutive stretches, one per stage of the result: each stretch reads a few
buffers written before it and leaves its stage's value in one buffer. -/

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1–7. -/
abbrev st1 : List (HloOp τ sig (Elt F)) :=
  [ binary main_arg0 main_arg3 main_v0 ((fun l r => Host.dotGeneral dot_S8x2048x1024_S1024x1024_S8x2048x1024_2_0_01_1_n_n none l r) : (⟨S8x2048x1024, .f32⟩ : BufTy).Contents (Elt F) → (⟨S1024x1024, .f32⟩ : BufTy).Contents (Elt F) → (⟨S8x2048x1024, .f32⟩ : BufTy).Contents (Elt F)),
    unary main_arg4 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v0 main_v2 main_v3 (addf : (⟨S8x2048x1024, .f32⟩ : BufTy).Contents (Elt F) → (⟨S8x2048x1024, .f32⟩ : BufTy).Contents (Elt F) → (⟨S8x2048x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x2048x1024, .f32⟩) main_call0_v0) (broadcastInDim S8x2048x1024 ![] bcast_S_S8x2048x1024),
    TRef.binary (TRef.of (T := ⟨S8x2048x1024, .f32⟩) main_v3) (TRef.of (T := ⟨S8x2048x1024, .f32⟩) main_call0_v0) (TRef.of (T := ⟨S8x2048x1024, .f32⟩) main_v4) maximumf ]
/-- The buffers the operations of `st1` write. -/
abbrev st1_W : List (Ref sig .tc) := [main_v0, main_v1, main_v2, main_v3, main_call0_cst, main_call0_v0, main_v4]

/-- Operations 8–14. -/
abbrev st2 : List (HloOp τ sig (Elt F)) :=
  [ binary main_arg1 main_arg5 main_v5 ((fun l r => Host.dotGeneral dot_S8x512x1024_S1024x1024_S8x512x1024_2_0_01_1_n_n none l r) : (⟨S8x512x1024, .f32⟩ : BufTy).Contents (Elt F) → (⟨S1024x1024, .f32⟩ : BufTy).Contents (Elt F) → (⟨S8x512x1024, .f32⟩ : BufTy).Contents (Elt F)),
    unary main_arg6 main_v6 (broadcastInDim S1x1x1024 ![2] bcast_S1024_S1x1x1024_2 : (⟨S1024, .f32⟩ : BufTy).Contents (Elt F) → (⟨S1x1x1024, .f32⟩ : BufTy).Contents (Elt F)),
    unary main_v6 main_v7 (broadcastInDim S8x512x1024 ![0, 1, 2] bcast_S1x1x1024_S8x512x1024_0_1_2 : (⟨S1x1x1024, .f32⟩ : BufTy).Contents (Elt F) → (⟨S8x512x1024, .f32⟩ : BufTy).Contents (Elt F)),
    binary main_v5 main_v7 main_v8 (addf : (⟨S8x512x1024, .f32⟩ : BufTy).Contents (Elt F) → (⟨S8x512x1024, .f32⟩ : BufTy).Contents (Elt F) → (⟨S8x512x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x512x1024, .f32⟩) main_call1_v0) (broadcastInDim S8x512x1024 ![] bcast_S_S8x512x1024),
    TRef.binary (TRef.of (T := ⟨S8x512x1024, .f32⟩) main_v8) (TRef.of (T := ⟨S8x512x1024, .f32⟩) main_call1_v0) (TRef.of (T := ⟨S8x512x1024, .f32⟩) main_v9) maximumf ]
/-- The buffers the operations of `st2` write. -/
abbrev st2_W : List (Ref sig .tc) := [main_v5, main_v6, main_v7, main_v8, main_call1_cst, main_call1_v0, main_v9]

/-- Operations 15–27. -/
abbrev st3 : List (HloOp τ sig (Elt F)) :=
  [ binary main_v4 main_v9 main_v10 ((fun l r => Host.dotGeneral dot_S8x2048x1024_S8x512x1024_S8x2048x512_2_2_1_1_0_0 none l r) : (⟨S8x2048x1024, .f32⟩ : BufTy).Contents (Elt F) → (⟨S8x512x1024, .f32⟩ : BufTy).Contents (Elt F) → (⟨S8x2048x512, .f32⟩ : BufTy).Contents (Elt F)),
    nullary main_cst (constant S_ .f32 0x42000000#32),
    unary main_cst main_v11 (broadcastInDim S8x2048x512 ![] bcast_S_S8x2048x512 : (⟨S_, .f32⟩ : BufTy).Contents (Elt F) → (⟨S8x2048x512, .f32⟩ : BufTy).Contents (Elt F)),
    binary main_v10 main_v11 main_v12 (Host.divf : (⟨S8x2048x512, .f32⟩ : BufTy).Contents (Elt F) → (⟨S8x2048x512, .f32⟩ : BufTy).Contents (Elt F) → (⟨S8x2048x512, .f32⟩ : BufTy).Contents (Elt F)),
    unary main_arg2 main_v13 (broadcastInDim S8x1x512 ![0, 2] bcast_S8x512_S8x1x512_0_2 : (⟨S8x512, .f32⟩ : BufTy).Contents (Elt F) → (⟨S8x1x512, .f32⟩ : BufTy).Contents (Elt F)),
    nullary main_cst_0 (constant S_ .f32 0x3F800000#32),
    unary main_cst_0 main_v14 (broadcastInDim S8x1x512 ![] bcast_S_S8x1x512 : (⟨S_, .f32⟩ : BufTy).Contents (Elt F) → (⟨S8x1x512, .f32⟩ : BufTy).Contents (Elt F)),
    binary main_v14 main_v13 main_v15 (subf : (⟨S8x1x512, .f32⟩ : BufTy).Contents (Elt F) → (⟨S8x1x512, .f32⟩ : BufTy).Contents (Elt F) → (⟨S8x1x512, .f32⟩ : BufTy).Contents (Elt F)),
    nullary main_cst_1 (constant S_ .f32 0x7149F2CA#32),
    unary main_cst_1 main_v16 (broadcastInDim S8x1x512 ![] bcast_S_S8x1x512 : (⟨S_, .f32⟩ : BufTy).Contents (Elt F) → (⟨S8x1x512, .f32⟩ : BufTy).Contents (Elt F)),
    binary main_v16 main_v15 main_v17 (mulf : (⟨S8x1x512, .f32⟩ : BufTy).Contents (Elt F) → (⟨S8x1x512, .f32⟩ : BufTy).Contents (Elt F) → (⟨S8x1x512, .f32⟩ : BufTy).Contents (Elt F)),
    unary main_v17 main_v18 (broadcastInDim S8x2048x512 ![0, 1, 2] bcast_S8x1x512_S8x2048x512_0_1_2 : (⟨S8x1x512, .f32⟩ : BufTy).Contents (Elt F) → (⟨S8x2048x512, .f32⟩ : BufTy).Contents (Elt F)),
    binary main_v12 main_v18 main_v19 (subf : (⟨S8x2048x512, .f32⟩ : BufTy).Contents (Elt F) → (⟨S8x2048x512, .f32⟩ : BufTy).Contents (Elt F) → (⟨S8x2048x512, .f32⟩ : BufTy).Contents (Elt F)) ]
/-- The buffers the operations of `st3` write. -/
abbrev st3_W : List (Ref sig .tc) := [main_v10, main_cst, main_v11, main_v12, main_v13, main_cst_0, main_v14, main_v15, main_cst_1, main_v16, main_v17, main_v18, main_v19]

/-- Operations 28–41. -/
abbrev st4 : List (HloOp τ sig (Elt F)) :=
  [ nullary main_cst_2 (constant S_ .f32 0xFF800000#32),
    binary main_v19 main_cst_2 main_v20 ((fun x v => Host.reduce FloatOps.maximumf x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    nullary main_cst_3 (constant S_ .f32 0xFF800000#32),
    unary main_cst_3 main_v21 (broadcastInDim S8x2048 ![] bcast_S_S8x2048 : (⟨S_, .f32⟩ : BufTy).Contents (Elt F) → (⟨S8x2048, .f32⟩ : BufTy).Contents (Elt F)),
    binary main_v21 main_v20 main_v22 (maximumf : (⟨S8x2048, .f32⟩ : BufTy).Contents (Elt F) → (⟨S8x2048, .f32⟩ : BufTy).Contents (Elt F) → (⟨S8x2048, .f32⟩ : BufTy).Contents (Elt F)),
    unary main_v22 main_v23 (broadcastInDim S8x2048x1 ![0, 1] bcast_S8x2048_S8x2048x1_0_1 : (⟨S8x2048, .f32⟩ : BufTy).Contents (Elt F) → (⟨S8x2048x1, .f32⟩ : BufTy).Contents (Elt F)),
    unary main_v23 main_v24 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    binary main_v19 main_v24 main_v25 (subf : (⟨S8x2048x512, .f32⟩ : BufTy).Contents (Elt F) → (⟨S8x2048x512, .f32⟩ : BufTy).Contents (Elt F) → (⟨S8x2048x512, .f32⟩ : BufTy).Contents (Elt F)),
    unary main_v25 main_v26 (Host.exp : (⟨S8x2048x512, .f32⟩ : BufTy).Contents (Elt F) → (⟨S8x2048x512, .f32⟩ : BufTy).Contents (Elt F)),
    nullary main_cst_4 (constant S_ .f32 0x00000000#32),
    binary main_v26 main_cst_4 main_v27 ((fun x v => Host.reduceAdd x v reducesTo_S8x2048x512_S8x2048_d2 h_S_) : (⟨S8x2048x512, .f32⟩ : BufTy).Contents (Elt F) → (⟨S_, .f32⟩ : BufTy).Contents (Elt F) → (⟨S8x2048, .f32⟩ : BufTy).Contents (Elt F)),
    unary main_v27 main_v28 (broadcastInDim S8x2048x1 ![0, 1] bcast_S8x2048_S8x2048x1_0_1 : (⟨S8x2048, .f32⟩ : BufTy).Contents (Elt F) → (⟨S8x2048x1, .f32⟩ : BufTy).Contents (Elt F)),
    unary main_v28 main_v29 (broadcastInDim S8x2048x512 ![0, 1, 2] bcast_S8x2048x1_S8x2048x512_0_1_2 : (⟨S8x2048x1, .f32⟩ : BufTy).Contents (Elt F) → (⟨S8x2048x512, .f32⟩ : BufTy).Contents (Elt F)),
    binary main_v26 main_v29 main_v30 (Host.divf : (⟨S8x2048x512, .f32⟩ : BufTy).Contents (Elt F) → (⟨S8x2048x512, .f32⟩ : BufTy).Contents (Elt F) → (⟨S8x2048x512, .f32⟩ : BufTy).Contents (Elt F)) ]
/-- The buffers the operations of `st4` write. -/
abbrev st4_W : List (Ref sig .tc) := [main_cst_2, main_v20, main_cst_3, main_v21, main_v22, main_v23, main_v24, main_v25, main_v26, main_cst_4, main_v27, main_v28, main_v29, main_v30]

/-- Operation 42. -/
abbrev st5 : List (HloOp τ sig (Elt F)) :=
  [ binary main_v30 main_arg1 main_v31 ((fun l r => Host.dotGeneral dot_S8x2048x512_S8x512x1024_S8x2048x1024_2_1_1_2_0_0 none l r) : (⟨S8x2048x512, .f32⟩ : BufTy).Contents (Elt F) → (⟨S8x512x1024, .f32⟩ : BufTy).Contents (Elt F) → (⟨S8x2048x1024, .f32⟩ : BufTy).Contents (Elt F)) ]
/-- The buffers the operations of `st5` write. -/
abbrev st5_W : List (Ref sig .tc) := [main_v31]

/-- Operations 43–47. -/
abbrev st6 : List (HloOp τ sig (Elt F)) :=
  [ binary main_arg0 main_v31 main_v32 ((fun a b => concatenate S8x2048x2048 2 [⟨S8x2048x1024, a⟩, ⟨S8x2048x1024, b⟩] concatenates_S8x2048x1024_S8x2048x1024_S8x2048x2048_d2) : (⟨S8x2048x1024, .f32⟩ : BufTy).Contents (Elt F) → (⟨S8x2048x1024, .f32⟩ : BufTy).Contents (Elt F) → (⟨S8x2048x2048, .f32⟩ : BufTy).Contents (Elt F)),
    binary main_v32 main_arg7 main_v33 ((fun l r => Host.dotGeneral dot_S8x2048x2048_S2048x1024_S8x2048x1024_2_0_01_1_n_n none l r) : (⟨S8x2048x2048, .f32⟩ : BufTy).Contents (Elt F) → (⟨S2048x1024, .f32⟩ : BufTy).Contents (Elt F) → (⟨S8x2048x1024, .f32⟩ : BufTy).Contents (Elt F)),
    unary main_arg8 main_v34 (broadcastInDim S1x1x1024 ![2] bcast_S1024_S1x1x1024_2 : (⟨S1024, .f32⟩ : BufTy).Contents (Elt F) → (⟨S1x1x1024, .f32⟩ : BufTy).Contents (Elt F)),
    unary main_v34 main_v35 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v33 main_v35 main_v36 (addf : (⟨S8x2048x1024, .f32⟩ : BufTy).Contents (Elt F) → (⟨S8x2048x1024, .f32⟩ : BufTy).Contents (Elt F) → (⟨S8x2048x1024, .f32⟩ : BufTy).Contents (Elt F)) ]
/-- The buffers the operations of `st6` write. -/
abbrev st6_W : List (Ref sig .tc) := [main_v32, main_v33, main_v34, main_v35, main_v36]

/-- Operations 48–57. -/
abbrev st7 : List (HloOp τ sig (Elt F)) :=
  [ unary main_v36 main_v37 (Host.negf : (⟨S8x2048x1024, .f32⟩ : BufTy).Contents (Elt F) → (⟨S8x2048x1024, .f32⟩ : BufTy).Contents (Elt F)),
    unary main_v37 main_v38 (Host.exp : (⟨S8x2048x1024, .f32⟩ : BufTy).Contents (Elt F) → (⟨S8x2048x1024, .f32⟩ : BufTy).Contents (Elt F)),
    nullary main_cst_5 (constant S_ .f32 0x3F800000#32),
    unary main_cst_5 main_v39 (broadcastInDim S8x2048x1024 ![] bcast_S_S8x2048x1024 : (⟨S_, .f32⟩ : BufTy).Contents (Elt F) → (⟨S8x2048x1024, .f32⟩ : BufTy).Contents (Elt F)),
    binary main_v39 main_v38 main_v40 (addf : (⟨S8x2048x1024, .f32⟩ : BufTy).Contents (Elt F) → (⟨S8x2048x1024, .f32⟩ : BufTy).Contents (Elt F) → (⟨S8x2048x1024, .f32⟩ : BufTy).Contents (Elt F)),
    nullary main_cst_6 (constant S_ .f32 0x3F800000#32),
    unary main_cst_6 main_v41 (broadcastInDim S8x2048x1024 ![] bcast_S_S8x2048x1024 : (⟨S_, .f32⟩ : BufTy).Contents (Elt F) → (⟨S8x2048x1024, .f32⟩ : BufTy).Contents (Elt F)),
    binary main_v41 main_v40 main_v42 (Host.divf : (⟨S8x2048x1024, .f32⟩ : BufTy).Contents (Elt F) → (⟨S8x2048x1024, .f32⟩ : BufTy).Contents (Elt F) → (⟨S8x2048x1024, .f32⟩ : BufTy).Contents (Elt F)),
    unary main_v36 main_v43 (Host.tanh : (⟨S8x2048x1024, .f32⟩ : BufTy).Contents (Elt F) → (⟨S8x2048x1024, .f32⟩ : BufTy).Contents (Elt F)),
    binary main_v42 main_v43 main_v44 (mulf : (⟨S8x2048x1024, .f32⟩ : BufTy).Contents (Elt F) → (⟨S8x2048x1024, .f32⟩ : BufTy).Contents (Elt F) → (⟨S8x2048x1024, .f32⟩ : BufTy).Contents (Elt F)) ]
/-- The buffers the operations of `st7` write. -/
abbrev st7_W : List (Ref sig .tc) := [main_v37, main_v38, main_cst_5, main_v39, main_v40, main_cst_6, main_v41, main_v42, main_v43, main_v44]

set_option maxRecDepth 65536 in
/-- The whole list is the seven stretches in order. -/
theorem ops_eq : (ops : List (HloOp τ sig (Elt F))) = st1 ++ (st2 ++ (st3 ++ (st4 ++ (st5 ++ (st6 ++ st7))))) := rfl

set_option maxRecDepth 8192 in
theorem st1_writes : (st1 : List (HloOp τ sig (Elt F))).Forall fun op =>
    op.writes ⊆ (st1_W.map (Proc.devRef (τ := τ) .tc)).toFinset := by
  simp only [st1, List.Forall, nullary_writes, unary_writes, binary_writes, Finset.singleton_subset_iff, List.mem_toFinset]
  repeat' apply And.intro
  all_goals exact List.mem_map_of_mem (by decide)
/-- A buffer that `st1` does not write keeps its contents through it. -/
theorem st1_keep (V : Valuation τ sig (Elt F)) (r : Ref sig .tc) (h : r ∉ st1_W) :
    after (st1 (F := F)) V (Proc.devRef .tc r) = V (Proc.devRef .tc r) :=
  after_of_writes_sub st1 V st1_writes h
set_option maxRecDepth 8192 in
/-- The first stretch computes the rectified projection of the queries. -/
theorem st1_out (V : Valuation τ sig (Elt F)) :
    after (st1 (F := F)) V (Proc.devRef .tc main_v4) = RefTerm.inProj (V (Proc.devRef .tc main_arg0)) (V (Proc.devRef .tc main_arg3)) (V (Proc.devRef .tc main_arg4)) := by
  simp only [st1]
  after_results
  rfl

set_option maxRecDepth 8192 in
theorem st2_writes : (st2 : List (HloOp τ sig (Elt F))).Forall fun op =>
    op.writes ⊆ (st2_W.map (Proc.devRef (τ := τ) .tc)).toFinset := by
  simp only [st2, List.Forall, nullary_writes, unary_writes, binary_writes, Finset.singleton_subset_iff, List.mem_toFinset]
  repeat' apply And.intro
  all_goals exact List.mem_map_of_mem (by decide)
/-- A buffer that `st2` does not write keeps its contents through it. -/
theorem st2_keep (V : Valuation τ sig (Elt F)) (r : Ref sig .tc) (h : r ∉ st2_W) :
    after (st2 (F := F)) V (Proc.devRef .tc r) = V (Proc.devRef .tc r) :=
  after_of_writes_sub st2 V st2_writes h
set_option maxRecDepth 8192 in
/-- The second stretch computes the rectified projection of the memory. -/
theorem st2_out (V : Valuation τ sig (Elt F)) :
    after (st2 (F := F)) V (Proc.devRef .tc main_v9) = RefTerm.memProj (V (Proc.devRef .tc main_arg1)) (V (Proc.devRef .tc main_arg5)) (V (Proc.devRef .tc main_arg6)) := by
  simp only [st2]
  after_results
  rfl

set_option maxRecDepth 8192 in
theorem st3_writes : (st3 : List (HloOp τ sig (Elt F))).Forall fun op =>
    op.writes ⊆ (st3_W.map (Proc.devRef (τ := τ) .tc)).toFinset := by
  simp only [st3, List.Forall, nullary_writes, unary_writes, binary_writes, Finset.singleton_subset_iff, List.mem_toFinset]
  repeat' apply And.intro
  all_goals exact List.mem_map_of_mem (by decide)
/-- A buffer that `st3` does not write keeps its contents through it. -/
theorem st3_keep (V : Valuation τ sig (Elt F)) (r : Ref sig .tc) (h : r ∉ st3_W) :
    after (st3 (F := F)) V (Proc.devRef .tc r) = V (Proc.devRef .tc r) :=
  after_of_writes_sub st3 V st3_writes h
set_option maxRecDepth 8192 in
/-- The third stretch computes the masked scaled scores from the two projections and the mask. -/
theorem st3_out (V : Valuation τ sig (Elt F)) :
    after (st3 (F := F)) V (Proc.devRef .tc main_v19) = RefTerm.scores (V (Proc.devRef .tc main_v4)) (V (Proc.devRef .tc main_v9)) (V (Proc.devRef .tc main_arg2)) := by
  simp only [st3]
  after_results
  rfl

set_option maxRecDepth 8192 in
theorem st4_writes : (st4 : List (HloOp τ sig (Elt F))).Forall fun op =>
    op.writes ⊆ (st4_W.map (Proc.devRef (τ := τ) .tc)).toFinset := by
  simp only [st4, List.Forall, nullary_writes, unary_writes, binary_writes, Finset.singleton_subset_iff, List.mem_toFinset]
  repeat' apply And.intro
  all_goals exact List.mem_map_of_mem (by decide)
/-- A buffer that `st4` does not write keeps its contents through it. -/
theorem st4_keep (V : Valuation τ sig (Elt F)) (r : Ref sig .tc) (h : r ∉ st4_W) :
    after (st4 (F := F)) V (Proc.devRef .tc r) = V (Proc.devRef .tc r) :=
  after_of_writes_sub st4 V st4_writes h
set_option maxRecDepth 8192 in
/-- The fourth stretch computes the softmax of the scores over the memory slots. -/
theorem st4_out (V : Valuation τ sig (Elt F)) :
    after (st4 (F := F)) V (Proc.devRef .tc main_v30) = RefTerm.softmax (V (Proc.devRef .tc main_v19)) := by
  simp only [st4]
  after_results
  rfl

set_option maxRecDepth 8192 in
theorem st5_writes : (st5 : List (HloOp τ sig (Elt F))).Forall fun op =>
    op.writes ⊆ (st5_W.map (Proc.devRef (τ := τ) .tc)).toFinset := by
  simp only [st5, List.Forall, nullary_writes, unary_writes, binary_writes, Finset.singleton_subset_iff, List.mem_toFinset]
  repeat' apply And.intro
  all_goals exact List.mem_map_of_mem (by decide)
/-- A buffer that `st5` does not write keeps its contents through it. -/
theorem st5_keep (V : Valuation τ sig (Elt F)) (r : Ref sig .tc) (h : r ∉ st5_W) :
    after (st5 (F := F)) V (Proc.devRef .tc r) = V (Proc.devRef .tc r) :=
  after_of_writes_sub st5 V st5_writes h
set_option maxRecDepth 8192 in
/-- The fifth stretch averages the memory rows by the weights. -/
theorem st5_out (V : Valuation τ sig (Elt F)) :
    after (st5 (F := F)) V (Proc.devRef .tc main_v31) = RefTerm.attend (V (Proc.devRef .tc main_v30)) (V (Proc.devRef .tc main_arg1)) := by
  simp only [st5]
  after_results
  rfl

set_option maxRecDepth 8192 in
theorem st6_writes : (st6 : List (HloOp τ sig (Elt F))).Forall fun op =>
    op.writes ⊆ (st6_W.map (Proc.devRef (τ := τ) .tc)).toFinset := by
  simp only [st6, List.Forall, nullary_writes, unary_writes, binary_writes, Finset.singleton_subset_iff, List.mem_toFinset]
  repeat' apply And.intro
  all_goals exact List.mem_map_of_mem (by decide)
/-- A buffer that `st6` does not write keeps its contents through it. -/
theorem st6_keep (V : Valuation τ sig (Elt F)) (r : Ref sig .tc) (h : r ∉ st6_W) :
    after (st6 (F := F)) V (Proc.devRef .tc r) = V (Proc.devRef .tc r) :=
  after_of_writes_sub st6 V st6_writes h
set_option maxRecDepth 8192 in
/-- The sixth stretch computes the gate's argument from the queries and the averaged memory. -/
theorem st6_out (V : Valuation τ sig (Elt F)) :
    after (st6 (F := F)) V (Proc.devRef .tc main_v36) = RefTerm.gateArg (V (Proc.devRef .tc main_arg0)) (V (Proc.devRef .tc main_v31)) (V (Proc.devRef .tc main_arg7)) (V (Proc.devRef .tc main_arg8)) := by
  simp only [st6]
  after_results
  rfl

set_option maxRecDepth 8192 in
theorem st7_writes : (st7 : List (HloOp τ sig (Elt F))).Forall fun op =>
    op.writes ⊆ (st7_W.map (Proc.devRef (τ := τ) .tc)).toFinset := by
  simp only [st7, List.Forall, nullary_writes, unary_writes, binary_writes, Finset.singleton_subset_iff, List.mem_toFinset]
  repeat' apply And.intro
  all_goals exact List.mem_map_of_mem (by decide)
/-- A buffer that `st7` does not write keeps its contents through it. -/
theorem st7_keep (V : Valuation τ sig (Elt F)) (r : Ref sig .tc) (h : r ∉ st7_W) :
    after (st7 (F := F)) V (Proc.devRef .tc r) = V (Proc.devRef .tc r) :=
  after_of_writes_sub st7 V st7_writes h
set_option maxRecDepth 8192 in
/-- The seventh stretch applies the gate. -/
theorem st7_out (V : Valuation τ sig (Elt F)) :
    after (st7 (F := F)) V (Proc.devRef .tc main_v44) = RefTerm.gate (V (Proc.devRef .tc main_v36)) := by
  simp only [st7]
  after_results
  rfl

/-! ## The result buffer

Through the seven stretches, outermost first: each stretch's value is its stage of what the earlier stretches left,
and an argument buffer, or a value an earlier stretch left, passes unchanged through every stretch that does not write it. -/

set_option maxRecDepth 8192 in
/-- After all the operations the result buffer holds the composed stages of the argument buffers' contents. -/
theorem result_eq (V : Valuation τ sig (Elt F)) :
    after (ops (F := F)) V (Proc.devRef .tc main_v44) = RefTerm.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_eq]
  simp only [after_append]
  rw [st7_out, st6_out]
  rw [st5_keep _ main_arg0 (by decide), st5_keep _ main_arg7 (by decide), st5_keep _ main_arg8 (by decide), st5_out]
  rw [st4_keep _ main_arg0 (by decide), st4_keep _ main_arg1 (by decide), st4_keep _ main_arg7 (by decide), st4_keep _ main_arg8 (by decide), st4_out]
  rw [st3_keep _ main_arg0 (by decide), st3_keep _ main_arg1 (by decide), st3_keep _ main_arg7 (by decide), st3_keep _ main_arg8 (by decide), st3_out]
  rw [st2_keep _ main_arg0 (by decide), st2_keep _ main_arg1 (by decide), st2_keep _ main_arg2 (by decide), st2_keep _ main_arg7 (by decide), st2_keep _ main_arg8 (by decide), st2_keep _ main_v4 (by decide), st2_out]
  rw [st1_keep _ main_arg0 (by decide), st1_keep _ main_arg1 (by decide), st1_keep _ main_arg2 (by decide), st1_keep _ main_arg5 (by decide), st1_keep _ main_arg6 (by decide), st1_keep _ main_arg7 (by decide), st1_keep _ main_arg8 (by decide), st1_out]
  rfl

/-! ## The run -/

set_option maxRecDepth 8192 in
set_option maxHeartbeats 2000000 in
/-- On every device, for any float values, from any memory with zero counters: every weakly fair execution of the
    reference terminates, its result buffer holds `RefTerm.result` of the argument arrays, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
          = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v44).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.LibDot3.lean ====
import Idealize.ShloMosaic.Lib.ValueIdx
import Idealize.ShloMosaic.PureOps.Ideal.Laws

/-!
# Products of rank-three arrays, read at an index

Three contractions of a rank-three left operand, each with its six lists of dimension numbers written out, whatever
the extents `A`, `B`, `C`, `K`, `N` are. In each the sum over the record's contraction index, at the result index
written by its coordinates, is the plain sum over `k < K` of a product of two entries:

* `[A, B, K] × [K, N] → [A, B, N]`, no batch axis (a dense layer applied to every row of every batch):
  `∑ k, l (a, b, k) · r (k, n)` — `litFlat_sum`;
* `[A, B, K] × [A, C, K] → [A, B, C]`, the first axes a batch, the last axes contracted (inner products of rows with
  rows, batch by batch): `∑ k, l (a, b, k) · r (a, c, k)` — `litBT_sum`;
* `[A, B, K] × [A, K, N] → [A, B, N]`, the first axes a batch, the left operand's last axis against the right
  operand's middle one (a matrix product batch by batch): `∑ k, l (a, b, k) · r (a, k, n)` — `litBN_sum`.

With the library's reading of a `dot_general` or of a matrix product into a zero accumulator as the sum over the
contraction index (`Ideal.dotGeneral_apply`, `Ideal.matmul_constant_zero_apply`), these give the product's entries as
finite sums over the extended reals.
-/

noncomputable section

namespace Cert.LibDot3

open Idealize.ShloMosaic Idealize.ShloMosaic.ValueIdx
open scoped BigOperators

section Products

variable {A B C K N : Nat}

/-- Dimension numbers of `[A, B, K] × [K, N] → [A, B, N]`: the left operand's last axis against the right operand's
    first, no batch axis. -/
abbrev litFlat (wf : DotDims.WF (⟨3, ![A, B, K]⟩ : Shape) (⟨2, ![K, N]⟩ : Shape) (⟨3, ![A, B, N]⟩ : Shape) [2] [0] [0, 1] [1] [] []) :
    DotDims ⟨3, ![A, B, K]⟩ ⟨2, ![K, N]⟩ ⟨3, ![A, B, N]⟩ := ⟨[2], [0], [0, 1], [1], [], [], wf⟩

/-- The left operand's first axis is the result's first. -/
theorem litFlat_lhs0 (wf : DotDims.WF (⟨3, ![A, B, K]⟩ : Shape) (⟨2, ![K, N]⟩ : Shape) (⟨3, ![A, B, N]⟩ : Shape) [2] [0] [0, 1] [1] [] [])
    (j : (⟨3, ![A, B, N]⟩ : Shape).Idx) (k : (litFlat wf).contr.Idx) : ((litFlat wf).lhsIdx j k 0).val = (j 0).val := by
  unfold DotDims.lhsIdx
  rw [dif_neg (show ¬ (0 : Fin 3) ∈ (litFlat wf).lhsBatch from List.not_mem_nil),
    dif_pos (show (0 : Fin 3) ∈ (litFlat wf).lhsNonContracting from (by decide : (0 : Fin 3) ∈ ([0, 1] : List (Fin 3))))]
  rfl

/-- The left operand's second axis is the result's second. -/
theorem litFlat_lhs1 (wf : DotDims.WF (⟨3, ![A, B, K]⟩ : Shape) (⟨2, ![K, N]⟩ : Shape) (⟨3, ![A, B, N]⟩ : Shape) [2] [0] [0, 1] [1] [] [])
    (j : (⟨3, ![A, B, N]⟩ : Shape).Idx) (k : (litFlat wf).contr.Idx) : ((litFlat wf).lhsIdx j k 1).val = (j 1).val := by
  unfold DotDims.lhsIdx
  rw [dif_neg (show ¬ (1 : Fin 3) ∈ (litFlat wf).lhsBatch from List.not_mem_nil),
    dif_pos (show (1 : Fin 3) ∈ (litFlat wf).lhsNonContracting from (by decide : (1 : Fin 3) ∈ ([0, 1] : List (Fin 3))))]
  rfl

/-- The right operand's column is the result's last axis. -/
theorem litFlat_rhs1 (wf : DotDims.WF (⟨3, ![A, B, K]⟩ : Shape) (⟨2, ![K, N]⟩ : Shape) (⟨3, ![A, B, N]⟩ : Shape) [2] [0] [0, 1] [1] [] [])
    (j : (⟨3, ![A, B, N]⟩ : Shape).Idx) (k : (litFlat wf).contr.Idx) : ((litFlat wf).rhsIdx j k 1).val = (j 2).val := by
  unfold DotDims.rhsIdx
  rw [dif_neg (show ¬ (1 : Fin 2) ∈ (litFlat wf).rhsBatch from List.not_mem_nil),
    dif_pos (show (1 : Fin 2) ∈ (litFlat wf).rhsNonContracting from List.mem_singleton.mpr rfl)]
  rfl

/-- The product at `(a, b, n)` is the sum over the contracted axis of the left operand at `(a, b, k)` times the right
    operand at `(k, n)`. -/
theorem litFlat_sum (wf : DotDims.WF (⟨3, ![A, B, K]⟩ : Shape) (⟨2, ![K, N]⟩ : Shape) (⟨3, ![A, B, N]⟩ : Shape) [2] [0] [0, 1] [1] [] [])
    (l : (⟨3, ![A, B, K]⟩ : Shape).Idx → EReal) (r : (⟨2, ![K, N]⟩ : Shape).Idx → EReal) (a : Fin A) (b : Fin B) (n : Fin N) :
    ∑ k : (litFlat wf).contr.Idx, l ((litFlat wf).lhsIdx (ix3 a b n) k) * r ((litFlat wf).rhsIdx (ix3 a b n) k)
      = ∑ k : Fin K, l (ix3 a b k) * r (ix2 k n) := by
  rw [← Equiv.sum_comp (contrEquiv1 (litFlat wf) K rfl rfl).symm]
  refine Finset.sum_congr rfl fun k _ => ?_
  have hk := contrEquiv1_symm_val (litFlat wf) K rfl rfl k
  have el : (litFlat wf).lhsIdx (ix3 a b n) ((contrEquiv1 (litFlat wf) K rfl rfl).symm k) = ix3 a b k := funext fun c => Fin.ext (by
    match c with
    | ⟨0, _⟩ => exact litFlat_lhs0 wf _ _
    | ⟨1, _⟩ => exact litFlat_lhs1 wf _ _
    | ⟨2, _⟩ => exact ((litFlat wf).lhsIdx_val_of_single rfl _ _).trans hk)
  have er : (litFlat wf).rhsIdx (ix3 a b n) ((contrEquiv1 (litFlat wf) K rfl rfl).symm k) = ix2 k n := funext fun c => Fin.ext (by
    match c with
    | ⟨0, _⟩ => exact ((litFlat wf).rhsIdx_val_of_single rfl _ _).trans hk
    | ⟨1, _⟩ => exact litFlat_rhs1 wf _ _)
  rw [el, er]

/-- Dimension numbers of `[A, B, K] × [A, C, K] → [A, B, C]`: the first axes a batch, the last axes contracted. -/
abbrev litBT (wf : DotDims.WF (⟨3, ![A, B, K]⟩ : Shape) (⟨3, ![A, C, K]⟩ : Shape) (⟨3, ![A, B, C]⟩ : Shape) [2] [2] [1] [1] [0] [0]) :
    DotDims ⟨3, ![A, B, K]⟩ ⟨3, ![A, C, K]⟩ ⟨3, ![A, B, C]⟩ := ⟨[2], [2], [1], [1], [0], [0], wf⟩

/-- The left operand's batch axis is the result's first. -/
theorem litBT_lhs0 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).lhsIdx j k 0).val = (j 0).val := by
  unfold DotDims.lhsIdx
  rw [dif_pos (show (0 : Fin 3) ∈ (litBT wf).lhsBatch from List.mem_singleton.mpr rfl)]
  rfl

/-- The left operand's kept axis is the result's second. -/
theorem litBT_lhs1 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).lhsIdx j k 1).val = (j 1).val := by
  unfold DotDims.lhsIdx
  rw [dif_neg (show ¬ (1 : Fin 3) ∈ (litBT wf).lhsBatch from (by decide : ¬ (1 : Fin 3) ∈ ([0] : List (Fin 3)))),
    dif_pos (show (1 : Fin 3) ∈ (litBT wf).lhsNonContracting from List.mem_singleton.mpr rfl)]
  rfl

/-- The right operand's batch axis is the result's first. -/
theorem litBT_rhs0 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).rhsIdx j k 0).val = (j 0).val := by
  unfold DotDims.rhsIdx
  rw [dif_pos (show (0 : Fin 3) ∈ (litBT wf).rhsBatch from List.mem_singleton.mpr rfl)]
  rfl

/-- The right operand's kept axis is the result's last. -/
theorem litBT_rhs1 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).rhsIdx j k 1).val = (j 2).val := by
  unfold DotDims.rhsIdx
  rw [dif_neg (show ¬ (1 : Fin 3) ∈ (litBT wf).rhsBatch from (by decide : ¬ (1 : Fin 3) ∈ ([0] : List (Fin 3)))),
    dif_pos (show (1 : Fin 3) ∈ (litBT wf).rhsNonContracting from List.mem_singleton.mpr rfl)]
  rfl

/-- The product at `(a, b, c)` is the sum over the contracted axis of the left operand at `(a, b, k)` times the right
    operand at `(a, c, k)`. -/
theorem litBT_sum (wf : DotDims.WF (⟨3, ![A, B, K]⟩ : Shape) (⟨3, ![A, C, K]⟩ : Shape) (⟨3, ![A, B, C]⟩ : Shape) [2] [2] [1] [1] [0] [0])
    (l : (⟨3, ![A, B, K]⟩ : Shape).Idx → EReal) (r : (⟨3, ![A, C, K]⟩ : Shape).Idx → EReal) (a : Fin A) (b : Fin B) (c : Fin C) :
    ∑ k : (litBT wf).contr.Idx, l ((litBT wf).lhsIdx (ix3 a b c) k) * r ((litBT wf).rhsIdx (ix3 a b c) k)
      = ∑ k : Fin K, l (ix3 a b k) * r (ix3 a c k) := by
  rw [← Equiv.sum_comp (contrEquiv1 (litBT wf) K rfl rfl).symm]
  refine Finset.sum_congr rfl fun k _ => ?_
  have hk := contrEquiv1_symm_val (litBT wf) K rfl rfl k
  have el : (litBT wf).lhsIdx (ix3 a b c) ((contrEquiv1 (litBT wf) K rfl rfl).symm k) = ix3 a b k := funext fun e => Fin.ext (by
    match e with
    | ⟨0, _⟩ => exact litBT_lhs0 wf _ _
    | ⟨1, _⟩ => exact litBT_lhs1 wf _ _
    | ⟨2, _⟩ => exact ((litBT wf).lhsIdx_val_of_single rfl _ _).trans hk)
  have er : (litBT wf).rhsIdx (ix3 a b c) ((contrEquiv1 (litBT wf) K rfl rfl).symm k) = ix3 a c k := funext fun e => Fin.ext (by
    match e with
    | ⟨0, _⟩ => exact litBT_rhs0 wf _ _
    | ⟨1, _⟩ => exact litBT_rhs1 wf _ _
    | ⟨2, _⟩ => exact ((litBT wf).rhsIdx_val_of_single rfl _ _).trans hk)
  rw [el, er]

/-- Dimension numbers of `[A, B, K] × [A, K, N] → [A, B, N]`: the first axes a batch, the left operand's last axis
    against the right operand's middle one. -/
abbrev litBN (wf : DotDims.WF (⟨3, ![A, B, K]⟩ : Shape) (⟨3, ![A, K, N]⟩ : Shape) (⟨3, ![A, B, N]⟩ : Shape) [2] [1] [1] [2] [0] [0]) :
    DotDims ⟨3, ![A, B, K]⟩ ⟨3, ![A, K, N]⟩ ⟨3, ![A, B, N]⟩ := ⟨[2], [1], [1], [2], [0], [0], wf⟩

/-- The left operand's batch axis is the result's first. -/
theorem litBN_lhs0 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).lhsIdx j k 0).val = (j 0).val := by
  unfold DotDims.lhsIdx
  rw [dif_pos (show (0 : Fin 3) ∈ (litBN wf).lhsBatch from List.mem_singleton.mpr rfl)]
  rfl

/-- The left operand's kept axis is the result's second. -/
theorem litBN_lhs1 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).lhsIdx j k 1).val = (j 1).val := by
  unfold DotDims.lhsIdx
  rw [dif_neg (show ¬ (1 : Fin 3) ∈ (litBN wf).lhsBatch from (by decide : ¬ (1 : Fin 3) ∈ ([0] : List (Fin 3)))),
    dif_pos (show (1 : Fin 3) ∈ (litBN wf).lhsNonContracting from List.mem_singleton.mpr rfl)]
  rfl

/-- The right operand's batch axis is the result's first. -/
theorem litBN_rhs0 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).rhsIdx j k 0).val = (j 0).val := by
  unfold DotDims.rhsIdx
  rw [dif_pos (show (0 : Fin 3) ∈ (litBN wf).rhsBatch from List.mem_singleton.mpr rfl)]
  rfl

/-- The right operand's kept axis is the result's last. -/
theorem litBN_rhs2 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).rhsIdx j k 2).val = (j 2).val := by
  unfold DotDims.rhsIdx
  rw [dif_neg (show ¬ (2 : Fin 3) ∈ (litBN wf).rhsBatch from (by decide : ¬ (2 : Fin 3) ∈ ([0] : List (Fin 3)))),
    dif_pos (show (2 : Fin 3) ∈ (litBN wf).rhsNonContracting from List.mem_singleton.mpr rfl)]
  rfl

/-- The product at `(a, b, n)` is the sum over the contracted axis of the left operand at `(a, b, k)` times the right
    operand at `(a, k, n)`. -/
theorem litBN_sum (wf : DotDims.WF (⟨3, ![A, B, K]⟩ : Shape) (⟨3, ![A, K, N]⟩ : Shape) (⟨3, ![A, B, N]⟩ : Shape) [2] [1] [1] [2] [0] [0])
    (l : (⟨3, ![A, B, K]⟩ : Shape).Idx → EReal) (r : (⟨3, ![A, K, N]⟩ : Shape).Idx → EReal) (a : Fin A) (b : Fin B) (n : Fin N) :
    ∑ k : (litBN wf).contr.Idx, l ((litBN wf).lhsIdx (ix3 a b n) k) * r ((litBN wf).rhsIdx (ix3 a b n) k)
      = ∑ k : Fin K, l (ix3 a b k) * r (ix3 a k n) := by
  rw [← Equiv.sum_comp (contrEquiv1 (litBN wf) K rfl rfl).symm]
  refine Finset.sum_congr rfl fun k _ => ?_
  have hk := contrEquiv1_symm_val (litBN wf) K rfl rfl k
  have el : (litBN wf).lhsIdx (ix3 a b n) ((contrEquiv1 (litBN wf) K rfl rfl).symm k) = ix3 a b k := funext fun e => Fin.ext (by
    match e with
    | ⟨0, _⟩ => exact litBN_lhs0 wf _ _
    | ⟨1, _⟩ => exact litBN_lhs1 wf _ _
    | ⟨2, _⟩ => exact ((litBN wf).lhsIdx_val_of_single rfl _ _).trans hk)
  have er : (litBN wf).rhsIdx (ix3 a b n) ((contrEquiv1 (litBN wf) K rfl rfl).symm k) = ix3 a k n := funext fun e => Fin.ext (by
    match e with
    | ⟨0, _⟩ => exact litBN_rhs0 wf _ _
    | ⟨1, _⟩ => exact ((litBN wf).rhsIdx_val_of_single rfl _ _).trans hk
    | ⟨2, _⟩ => exact litBN_rhs2 wf _ _)
  rw [el, er]

end Products

end Cert.LibDot3

end
-- ==== Proof.RefValue.lean ====
import proofs.«126409_j6665789243993_2_alg».proof.Proof.RefTerm
import proofs.«126409_j6665789243993_2_alg».proof.Proof.Spec
import proofs.«126409_j6665789243993_2_alg».proof.Proof.LibDot3
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

/-!
# The reference's value: its result term is the specification, entry by entry

Read over the extended reals, each stage of the reference's result is the matching function of the specification:
the three kinds of array product are plain sums over the contracted axis, a spread-out vector reads the vector at the
kept coordinate, the reductions over the memory slots are a fold of maxima and a sum, and the two arrays laid side by
side split the last product's sum into its two halves. Every step is an identity of finite sums of extended reals.
-/

noncomputable section

namespace Cert.ReferenceIdeal.RefValue

open Idealize.ShloMosaic Idealize.ShloMosaic.ValueIdx
open Cert.ReferenceIdeal Cert.ReferenceIdeal.Gen
open scoped BigOperators

open Cert.LibDot3

/-! ## Spread-out arrays, read at an index -/

section Spread

/-- A vector of 1024 entries spread over the two leading axes reads the vector at the last coordinate. -/
theorem bias_apply {A B : Nat} (h1 : S1x1x1024.BroadcastsInDim (⟨3, ![A, B, 1024]⟩ : Shape) ![0, 1, 2])
    (h2 : S1024.BroadcastsInDim S1x1x1024 ![2]) (v : RefTerm.Arr Ideal S1024) (a : Fin A) (b : Fin B) (k : Fin 1024) :
    broadcastInDim (⟨3, ![A, B, 1024]⟩ : Shape) ![0, 1, 2] h1 (broadcastInDim S1x1x1024 ![2] h2 v) (ix3 a b k) = v (ix1 k) := by
  rw [broadcastInDim_apply ![0, 1, 2] h1 _ (ix3 a b k) (ix3 0 0 k) (fun c => by
      match c with
      | ⟨0, _⟩ => rfl
      | ⟨1, _⟩ => rfl
      | ⟨2, _⟩ => rfl),
    broadcastInDim_apply ![2] h2 v (ix3 0 0 k) (ix1 k) (fun c => by
      match c with
      | ⟨0, _⟩ => rfl)]

/-- An `[8, 1, 512]` array spread over the queries reads the array at the batch and the slot. -/
theorem slots_apply (h : S8x1x512.BroadcastsInDim S8x2048x512 ![0, 1, 2]) (y : RefTerm.Arr Ideal S8x1x512)
    (b : Fin 8) (l : Fin 2048) (j : Fin 512) :
    broadcastInDim S8x2048x512 ![0, 1, 2] h y (ix3 b l j) = y (ix3 b 0 j) :=
  broadcastInDim_apply ![0, 1, 2] h y (ix3 b l j) (ix3 b 0 j) (fun c => by
    match c with
    | ⟨0, _⟩ => rfl
    | ⟨1, _⟩ => rfl
    | ⟨2, _⟩ => rfl)

/-- The mask with a unit axis put in the middle reads the mask at the batch and the slot. -/
theorem mask_apply (h : S8x512.BroadcastsInDim S8x1x512 ![0, 2]) (mask : RefTerm.Arr Ideal S8x512) (b : Fin 8) (j : Fin 512) :
    broadcastInDim S8x1x512 ![0, 2] h mask (ix3 b 0 j) = mask (ix2 b j) :=
  broadcastInDim_apply ![0, 2] h mask (ix3 b 0 j) (ix2 b j) (fun c => by
    match c with
    | ⟨0, _⟩ => rfl
    | ⟨1, _⟩ => rfl)

/-- A value per query spread over the slots reads the value at the batch and the query. -/
theorem rows_apply (h1 : S8x2048x1.BroadcastsInDim S8x2048x512 ![0, 1, 2]) (h2 : S8x2048.BroadcastsInDim S8x2048x1 ![0, 1])
    (v : RefTerm.Arr Ideal S8x2048) (b : Fin 8) (l : Fin 2048) (j : Fin 512) :
    broadcastInDim S8x2048x512 ![0, 1, 2] h1 (broadcastInDim S8x2048x1 ![0, 1] h2 v) (ix3 b l j) = v (ix2 b l) := by
  rw [broadcastInDim_apply ![0, 1, 2] h1 _ (ix3 b l j) (ix3 b l 0) (fun c => by
      match c with
      | ⟨0, _⟩ => rfl
      | ⟨1, _⟩ => rfl
      | ⟨2, _⟩ => rfl),
    broadcastInDim_apply ![0, 1] h2 v (ix3 b l 0) (ix2 b l) (fun c => by
      match c with
      | ⟨0, _⟩ => rfl
      | ⟨1, _⟩ => rfl)]

end Spread

/-! ## The stages, read at an index -/

section Stages

open Cert.AttnSpec

/-- The query's projection at `(b, l, k)`. -/
theorem inProj_apply (x : RefTerm.Arr Ideal S8x2048x1024) (W1 : RefTerm.Arr Ideal S1024x1024) (b1 : RefTerm.Arr Ideal S1024)
    (b : Fin 8) (l : Fin 2048) (k : Fin 1024) :
    RefTerm.inProj x W1 b1 (ix3 b l k) = inDot x W1 b1 b l k := by
  unfold RefTerm.inProj inDot
  rw [maximumf_apply, addf_apply, broadcastInDim_scalar_apply, constant_apply, bias_apply]
  simp only [Host.dotGeneral]
  rw [Ideal.dotGeneral_apply]
  exact congrArg (fun t => max (t + b1 (ix1 k)) zeroW) (litFlat_sum _ x W1 b l k)

/-- A memory slot's projection at `(b, j, k)`. -/
theorem memProj_apply (mem : RefTerm.Arr Ideal S8x512x1024) (Wm : RefTerm.Arr Ideal S1024x1024) (bm : RefTerm.Arr Ideal S1024)
    (b : Fin 8) (j : Fin 512) (k : Fin 1024) :
    RefTerm.memProj mem Wm bm (ix3 b j k) = memDot mem Wm bm b j k := by
  unfold RefTerm.memProj memDot
  rw [maximumf_apply, addf_apply, broadcastInDim_scalar_apply, constant_apply, bias_apply]
  simp only [Host.dotGeneral]
  rw [Ideal.dotGeneral_apply]
  exact congrArg (fun t => max (t + bm (ix1 k)) zeroW) (litFlat_sum _ mem Wm b j k)

/-- The score of slot `j` for query `l`, from the two projections and the mask. -/
theorem scores_apply (p : RefTerm.Arr Ideal S8x2048x1024) (q : RefTerm.Arr Ideal S8x512x1024) (mask : RefTerm.Arr Ideal S8x512)
    (b : Fin 8) (l : Fin 2048) (j : Fin 512) :
    RefTerm.scores p q mask (ix3 b l j)
      = Ideal.div (∑ k : Fin 1024, p (ix3 b l k) * q (ix3 b j k)) scaleW - bigW * (oneW - mask (ix2 b j)) := by
  unfold RefTerm.scores
  rw [subf_apply, hostDivf_apply, broadcastInDim_scalar_apply, constant_apply, slots_apply, mulf_apply, subf_apply,
    broadcastInDim_scalar_apply, broadcastInDim_scalar_apply, constant_apply, constant_apply, mask_apply]
  simp only [Host.dotGeneral]
  rw [Ideal.dotGeneral_apply]
  exact congrArg (fun t => Ideal.div t scaleW - bigW * (oneW - mask (ix2 b j))) (litBT_sum _ p q b l j)

/-- A reduced index `(b, l)` with the slot `j` put back is `(b, l, j)`. -/
theorem lift_slot (h : S8x2048x512.Reduces [2] S8x2048) (b : Fin 8) (l : Fin 2048) (j : Fin (S8x2048x512.size 2)) :
    h.lift (ix2 b l) j = ix3 b l (⟨j.val, j.isLt⟩ : Fin 512) := by
  funext c; apply Fin.ext
  fin_cases c <;> rfl

/-- The row maximum spread over the slots: at `(b, l, j)` the largest entry of row `(b, l)`. -/
theorem rowMaxB_apply (s : RefTerm.Arr Ideal S8x2048x512) (b : Fin 8) (l : Fin 2048) (j : Fin 512) :
    RefTerm.rowMaxB s (ix3 b l j) = foldMax fun j' : Fin 512 => s (ix3 b l j') := by
  have h : S8x2048x512.Reduces [2] S8x2048 := by decide
  unfold RefTerm.rowMaxB
  rw [rows_apply, maximumf_apply, broadcastInDim_scalar_apply, constant_apply, max_negInfW]
  refine (Host.reduce_eq_fold_single (FloatOps.maximumf (F := Ideal) (φ := .f32)) (s : FVec Ideal S8x2048x512 .f32)
    (constant S_ .f32 0xFF800000#32) reducesTo_S8x2048x512_S8x2048_d2 h h_S_ (ix2 b l)).trans ?_
  have hf : (s ∘ h.lift (ix2 b l)) = fun j' : Fin 512 => s (ix3 b l j') := funext fun j' => congrArg s (lift_slot h b l j')
  rw [hf]
  rfl

/-- The exponentials at `(b, l, j)`. -/
theorem expos_apply (s : RefTerm.Arr Ideal S8x2048x512) (b : Fin 8) (l : Fin 2048) (j : Fin 512) :
    RefTerm.expos s (ix3 b l j) = Ideal.exp (s (ix3 b l j) - foldMax fun j' : Fin 512 => s (ix3 b l j')) := by
  unfold RefTerm.expos
  show FloatOps.hostUnary HostUnaryOp.exp (subf s (RefTerm.rowMaxB s) (ix3 b l j)) = _
  rw [Ideal.hostUnary_exp_def, subf_apply, rowMaxB_apply]

/-- The normalized row at `(b, l, j)`: the entry divided by the row's sum. -/
theorem normalize_apply (e : RefTerm.Arr Ideal S8x2048x512) (b : Fin 8) (l : Fin 2048) (j : Fin 512) :
    RefTerm.normalize e (ix3 b l j) = Ideal.div (e (ix3 b l j)) (∑ j' : Fin 512, e (ix3 b l j')) := by
  have h : S8x2048x512.Reduces [2] S8x2048 := by decide
  unfold RefTerm.normalize
  rw [hostDivf_apply, rows_apply, hostReduceAdd_apply,
    Ideal.hostReduceAdd_single reducesTo_S8x2048x512_S8x2048_d2 h e _ (ix2 b l), constant_apply, Ideal.ofBits_zero_f32, zero_add]
  exact congrArg (fun t => Ideal.div (e (ix3 b l j)) t) (Finset.sum_congr rfl fun j' _ => congrArg e (lift_slot h b l j'))

/-- The averaged memory at `(b, l, d)`. -/
theorem attend_apply (w : RefTerm.Arr Ideal S8x2048x512) (mem : RefTerm.Arr Ideal S8x512x1024) (b : Fin 8) (l : Fin 2048) (d : Fin 1024) :
    RefTerm.attend w mem (ix3 b l d) = ∑ j : Fin 512, w (ix3 b l j) * mem (ix3 b j d) := by
  unfold RefTerm.attend
  simp only [Host.dotGeneral]
  rw [Ideal.dotGeneral_apply]
  exact litBN_sum _ w mem b l d

/-- The softmax at `(b, l, j)`, from the scores of row `(b, l)`. -/
theorem softmax_apply (s : RefTerm.Arr Ideal S8x2048x512) (b : Fin 8) (l : Fin 2048) (j : Fin 512) :
    RefTerm.softmax s (ix3 b l j)
      = Ideal.div (Ideal.exp (s (ix3 b l j) - foldMax fun j' : Fin 512 => s (ix3 b l j')))
          (∑ j' : Fin 512, Ideal.exp (s (ix3 b l j') - foldMax fun j'' : Fin 512 => s (ix3 b l j''))) := by
  unfold RefTerm.softmax
  rw [normalize_apply, expos_apply]
  exact congrArg (fun t => Ideal.div _ t) (Finset.sum_congr rfl fun j' _ => expos_apply s b l j')

/-- Of the two arrays laid side by side along the last axis, an entry in the first half is the first array's. -/
theorem cat_left (x o : RefTerm.Arr Ideal S8x2048x1024) (b : Fin 8) (l : Fin 2048) (d : Fin 1024) :
    concatenate S8x2048x2048 2 [⟨S8x2048x1024, x⟩, ⟨S8x2048x1024, o⟩] concatenates_S8x2048x1024_S8x2048x1024_S8x2048x2048_d2
      (ix3 b l (Fin.castAdd 1024 d : Fin (1024 + 1024))) = x (ix3 b l d) :=
  concatenate_pair_apply_left (t := S8x2048x2048) (s₁ := S8x2048x1024) (s₂ := S8x2048x1024) 2 x o
    concatenates_S8x2048x1024_S8x2048x1024_S8x2048x2048_d2 (ix3 b l (Fin.castAdd 1024 d : Fin (1024 + 1024))) rfl (ix3 b l d) (fun c => by
    match c with
    | ⟨0, _⟩ => rfl
    | ⟨1, _⟩ => rfl
    | ⟨2, _⟩ => rfl)

/-- An entry in the second half is the second array's, 1024 places earlier. -/
theorem cat_right (x o : RefTerm.Arr Ideal S8x2048x1024) (b : Fin 8) (l : Fin 2048) (d : Fin 1024) :
    concatenate S8x2048x2048 2 [⟨S8x2048x1024, x⟩, ⟨S8x2048x1024, o⟩] concatenates_S8x2048x1024_S8x2048x1024_S8x2048x2048_d2
      (ix3 b l (Fin.natAdd 1024 d : Fin (1024 + 1024))) = o (ix3 b l d) :=
  concatenate_pair_apply_right (t := S8x2048x2048) (s₁ := S8x2048x1024) (s₂ := S8x2048x1024) 2 x o
    concatenates_S8x2048x1024_S8x2048x1024_S8x2048x2048_d2 (ix3 b l (Fin.natAdd 1024 d : Fin (1024 + 1024))) rfl rfl (ix3 b l d) (fun c => by
    match c with
    | ⟨0, _⟩ => exact fun _ => rfl
    | ⟨1, _⟩ => exact fun _ => rfl
    | ⟨2, _⟩ => exact fun hne => absurd rfl hne) (by
    show d.val + 1024 = 1024 + d.val
    omega)

/-- The gate's argument at `(b, l, h)`: the contraction over the 2048 joined entries is the sum of its two halves. -/
theorem gateArg_apply (x o : RefTerm.Arr Ideal S8x2048x1024) (W2 : RefTerm.Arr Ideal S2048x1024) (b2 : RefTerm.Arr Ideal S1024)
    (b : Fin 8) (l : Fin 2048) (h : Fin 1024) :
    RefTerm.gateArg x o W2 b2 (ix3 b l h)
      = ((∑ d : Fin 1024, x (ix3 b l d) * W2 (ix2 (Fin.castAdd 1024 d : Fin (1024 + 1024)) h))
          + ∑ d : Fin 1024, o (ix3 b l d) * W2 (ix2 (Fin.natAdd 1024 d : Fin (1024 + 1024)) h))
        + b2 (ix1 h) := by
  unfold RefTerm.gateArg
  rw [addf_apply, bias_apply]
  simp only [Host.dotGeneral]
  rw [Ideal.dotGeneral_apply]
  refine congrArg (fun t => t + b2 (ix1 h)) ?_
  refine (litFlat_sum _ _ W2 b l h).trans ?_
  refine (sum_halves fun c : Fin (1024 + 1024) =>
    concatenate S8x2048x2048 2 [⟨S8x2048x1024, x⟩, ⟨S8x2048x1024, o⟩] concatenates_S8x2048x1024_S8x2048x1024_S8x2048x2048_d2 (ix3 b l c)
      * W2 (ix2 c h)).trans ?_
  congr 1
  · exact Finset.sum_congr rfl fun d _ => by rw [cat_left]
  · exact Finset.sum_congr rfl fun d _ => by rw [cat_right]

/-- The gate at an index: the logistic function of the argument times its hyperbolic tangent. -/
theorem gate_apply (z : RefTerm.Arr Ideal S8x2048x1024) (i : S8x2048x1024.Idx) :
    RefTerm.gate z i = Ideal.logistic (z i) * Ideal.tanh (z i) := by
  unfold RefTerm.gate Ideal.logistic
  rw [mulf_apply, hostDivf_apply, addf_apply, broadcastInDim_scalar_apply, constant_apply, Ideal.ofBits_one_f32]
  simp only [Host.exp, Host.negf, Host.tanh, Ideal.hostUnary_exp_def, Ideal.hostUnary_tanh_def, Ideal.hostNegf_def, Ideal.negf_def]

end Stages

/-! ## The result -/

/-- Over the extended reals the reference's result is the specification, entry by entry. -/
theorem result_eq (x : RefTerm.Arr Ideal S8x2048x1024) (mem : RefTerm.Arr Ideal S8x512x1024) (mask : RefTerm.Arr Ideal S8x512)
    (W1 : RefTerm.Arr Ideal S1024x1024) (b1 : RefTerm.Arr Ideal S1024) (Wm : RefTerm.Arr Ideal S1024x1024) (bm : RefTerm.Arr Ideal S1024)
    (W2 : RefTerm.Arr Ideal S2048x1024) (b2 : RefTerm.Arr Ideal S1024) :
    RefTerm.result (F := Ideal) x mem mask W1 b1 Wm bm W2 b2 = Cert.AttnSpec.G x mem mask W1 b1 Wm bm W2 b2 := by
  funext i
  obtain ⟨b, l, h, rfl⟩ : ∃ b l h, i = ix3 b l h := ⟨i 0, i 1, i 2, eq_ix3 i⟩
  unfold RefTerm.result
  rw [gate_apply, gateArg_apply]
  simp only [attend_apply, softmax_apply, scores_apply, inProj_apply, memProj_apply]
  rfl

end Cert.ReferenceIdeal.RefValue

end
-- ==== Proof.lean ====
/-
  Gated attention of queries over a memory, a Pallas kernel against its jnp reference, over the extended reals.

  For every batch `b`, query row `l` and hidden unit `h` both programs compute
  `logistic z · tanh z`, where `z` is the query row through the upper half of the last weight matrix, plus the
  softmax-weighted average of the batch's memory rows through its lower half, plus a bias; the weights are the
  softmax over the memory slots of the scaled inner products of the two rectified projections, lowered by a large
  multiple of `1 - mask` (Proof/Spec.lean states this entry by entry).

  The kernel walks a grid of 8 batches × 4 query tiles. It computes a batch's memory projection once, at the batch's
  first tile, keeps it in a buffer carried across the grid, and reads it back at the batch's other tiles; the
  reference computes everything on whole arrays and multiplies the concatenation of the query and the averaged memory
  by the whole last weight matrix. The two agree because
    * the carried buffer holds the current batch's projection at every grid point (induction along the grid:
      Proof/KValue.lean), so every output block is the specification read through the block, and the blocks tile the
      result array;
    * a sum over the 2048 concatenated coordinates is the sum over the first 1024 plus the sum over the last 1024
      (an identity of finite sums in any commutative monoid, so infinite entries do no harm and the finiteness of the
      inputs is never used);
    * the reference's extra maximum with `-∞` and its initial `0` of the row sum change nothing, and
      `1 / (1 + exp (-z))` is the logistic function by definition.
  The three frames are the generated frame runs (the reference's frame is its run with the result dropped); the
  idealization rewrote no operation, so there is nothing to preserve.
-/
import proofs.«126409_j6665789243993_2_alg».proof.Defs
import proofs.«126409_j6665789243993_2_alg».proof.Proof.Gen.Kernel
import proofs.«126409_j6665789243993_2_alg».proof.Proof.Gen.Kernel.Frame
import proofs.«126409_j6665789243993_2_alg».proof.Proof.Gen.KernelIdeal
import proofs.«126409_j6665789243993_2_alg».proof.Proof.Gen.KernelIdeal.Frame
import proofs.«126409_j6665789243993_2_alg».proof.Proof.Gen.KernelIdeal.Value
import proofs.«126409_j6665789243993_2_alg».proof.Proof.Gen.ReferenceIdeal
import proofs.«126409_j6665789243993_2_alg».proof.Proof.Gen.Pre_finite_inputs
import proofs.«126409_j6665789243993_2_alg».proof.Proof.KValue
import proofs.«126409_j6665789243993_2_alg».proof.Proof.RefRun
import proofs.«126409_j6665789243993_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs, from memories agreeing on the arguments, end with the specification's array and with the memory
    argument they return unchanged. -/
theorem algebraic : Cert.algebraic_KernelIdeal_ReferenceIdeal := by
  intro m ρ m' ρ' _ hagree
  refine ⟨fun c => Cert.KernelIdeal.Bridge.result m c,
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.Bridge.run m ρ)
  · refine (θ_run Cert.ReferenceIdeal.defs _ _).mono
      (fun r h c => ⟨(h c).1.trans ?_, (h c).2.2.1.trans (hagree c).2.1, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact Cert.ReferenceIdeal.RefValue.result_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
